-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S1600000x8 : Shape := ⟨2, ![1600000, 8]⟩
abbrev S100000 : Shape := ⟨1, ![100000]⟩
abbrev S16x128 : Shape := ⟨2, ![16, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S1600000x8 : S_.BroadcastsInDim S1600000x8 (![] : Fin 0 → Fin S1600000x8.rank)
  reducesTo_S1600000x8_S_d0_1 : S1600000x8.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128x1 .f32) (main_arg15 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg14
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S128x128 .f32) (main_arg10 : FVec F S128x128 .f32) (main_arg11 : FVec F S128 .f32) (main_arg12 : FVec F S128x128 .f32) (main_arg13 : FVec F S128 .f32) (main_arg14 : FVec F S128x1 .f32) (main_arg15 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_v48 main_v49 main_v50

def fn_part1 {F : FTy → Type} [FloatOps F] (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128 .f32) (main_arg14 : FVec F S128x1 .f32) (main_arg15 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x16 .f32) (main_arg1 : IVec S2x1600000 32) (main_arg2 : FVec F S1600000x8 .f32) (main_arg3 : IVec S100000 32) (main_arg4 : FVec F S16x128 .f32) (main_arg5 : FVec F S128 .f32) (main_arg6 : FVec F S128x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128 .f32) (main_arg14 : FVec F S128x1 .f32) (main_arg15 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S1600000x8 .f32 := Host.absf main_arg2
  let main_cst_0 : FVec F S_ .f32 := constant S_ .f32 0x7F800000#32
  let main_v5 : FVec F S1600000x8 .f32 := broadcastInDim S1600000x8 ![] bcast_S_S1600000x8 main_cst_0
  let main_v6 : IVec S1600000x8 1 := cmpf .olt main_v4 main_v5
  let main_c_1 : IVec S_ 1 := constantI S_ 1 1#1
  let main_v7 : IVec S_ 1 := (fun x v => Host.reduce IntOp.andi x v reducesTo_S1600000x8_S_d0_1 h_S_) main_v6 main_c_1
  let main_v8 : IVec S_ 1 := andi main_v3 main_v7
  let main_v9 : FVec F S16x128 .f32 := Host.absf main_arg4
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x16 : Shape := ⟨2, ![100000, 16]⟩
abbrev S2x1600000 : Shape := ⟨2, ![2, 1600000]⟩
abbrev S1600000x8 : Shape := ⟨2, ![1600000, 8]⟩
abbrev S100000 : Shape := ⟨1, ![100000]⟩
abbrev S16x128 : Shape := ⟨2, ![16, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1x128 : Shape := ⟨2, ![1, 128]⟩
abbrev S1x1 : Shape := ⟨2, ![1, 1]⟩
abbrev S_ : Shape := ⟨0, ![]⟩
abbrev S1600000x1 : Shape := ⟨2, ![1600000, 1]⟩
abbrev S100000x1 : Shape := ⟨2, ![100000, 1]⟩
abbrev S100000x128 : Shape := ⟨2, ![100000, 128]⟩
abbrev S5000x16 : Shape := ⟨2, ![5000, 16]⟩
abbrev S5000x128 : Shape := ⟨2, ![5000, 128]⟩
abbrev S1600000x128 : Shape := ⟨2, ![1600000, 128]⟩
abbrev S5000x1 : Shape := ⟨2, ![5000, 1]⟩

abbrev nBuf : Space → Nat
  | .hbm => 63
  | .vmem => 36
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S1600000x8, .f32⟩
  | .hbm, ⟨3, _⟩ => ⟨S100000, .i32⟩
  | .hbm, ⟨4, _⟩ => ⟨S16x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x1, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x128, .f32⟩
  | .hbm, ⟨61, _⟩ => ⟨S100000x1, .f32⟩
  | .hbm, ⟨62, _⟩ => ⟨S100000, .f32⟩
  | .local _ .vmem, ⟨0, _⟩ => ⟨S5000x16, .f32⟩
  | .local _ .vmem, ⟨1, _⟩ => ⟨S5000x16, .f32⟩
  | .local _ .vmem, ⟨2, _⟩ => ⟨S16x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S128x1, .f32⟩
  | .local _ .vmem, ⟨33, _⟩ => ⟨S1x1, .f32⟩
  | .local _ .vmem, ⟨34, _⟩ => ⟨S5000x1, .f32⟩
  | .local _ .vmem, ⟨35, _⟩ => ⟨S5000x1, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_3 : Ref sig .tc := ⟨.hbm, 47, rfl⟩
abbrev main_v26 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S128_S1x128 : S128.ShapeCasts S1x128
  shapeCasts_S1_S1x1 : S1.ShapeCasts S1x1
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S100000x1_S100000 : S100000x1.ShapeCasts S100000
  scatter_S100000_S1600000x1_S1600000_n_0_0_1_wf : ScatterDims.WF S100000 S1600000x1 S1600000 [] [0] [0] 1
  dot_S5000x16_S16x128_S5000x128_1_0_0_1_n_n_wf : DotDims.WF S5000x16 S16x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x1.size a ≤ S128x1.size a
  hwx3_3 : ∀ i : grid3.Coords, EltTy.bits .f32 = 32 ∨ (Rect.block (s := S128x1) S128x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x1.size a ≤ S100000x1.size a
  hwx3_5 : ∀ i : grid3.Coords, EltTy.bits .f32 = 32 ∨ (Rect.block (s := S100000x1) S5000x1.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v6) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v36) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v7) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg14) S128x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v8) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v37) S5000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S1600000x8 : Shape := ⟨2, ![1600000, 8]⟩
abbrev S100000 : Shape := ⟨1, ![100000]⟩
abbrev S16x128 : Shape := ⟨2, ![16, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S100000x128 : Shape := ⟨2, ![100000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x1 : Shape := ⟨2, ![1, 1]⟩

abbrev nBuf : Space → Nat
  | .hbm => 112
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S1600000x8, .f32⟩
  | .hbm, ⟨3, _⟩ => ⟨S100000, .i32⟩
  | .hbm, ⟨4, _⟩ => ⟨S16x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S100000x128, .f32⟩
  | .hbm, ⟨21, _⟩ => ⟨S1x128, .f32⟩
  | .hbm, ⟨22, _⟩ => ⟨S100000x128, .f32⟩
  | .hbm, ⟨23, _⟩ => ⟨S100000x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S_, .f32⟩
  | .hbm, ⟨38, _⟩ => ⟨S1600000, .f32⟩
  | .hbm, ⟨39, _⟩ => ⟨S_, .f32⟩
  | .hbm, ⟨40, _⟩ => ⟨S100000, .f32⟩
  | .hbm, ⟨41, _⟩ => ⟨S1600000x1, .i32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100000x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S_, .f32⟩
  | .hbm, ⟨72, _⟩ => ⟨S1600000, .f32⟩
  | .hbm, ⟨73, _⟩ => ⟨S_, .f32⟩
  | .hbm, ⟨74, _⟩ => ⟨S100000, .f32⟩
  | .hbm, ⟨75, _⟩ => ⟨S1600000x1, .i32⟩
  | .hbm, ⟨76, _⟩ => ⟨S100000, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | .hbm, ⟨99, _⟩ => ⟨S100000x1, .f32⟩
  | .hbm, ⟨100, _⟩ => ⟨S1x1, .f32⟩
  | .hbm, ⟨101, _⟩ => ⟨S100000x1, .f32⟩
  | .hbm, ⟨102, _⟩ => ⟨S100000x1, .f32⟩
  | .hbm, ⟨103, _⟩ => ⟨S100000x1, .f32⟩
  | .hbm, ⟨104, _⟩ => ⟨S100000x1, .f32⟩
  | .hbm, ⟨105, _⟩ => ⟨S_, .f32⟩
  | .hbm, ⟨106, _⟩ => ⟨S100000x1, .f32⟩
  | .hbm, ⟨107, _⟩ => ⟨S100000x1, .f32⟩
  | .hbm, ⟨108, _⟩ => ⟨S_, .f32⟩
  | .hbm, ⟨109, _⟩ => ⟨S100000x1, .f32⟩
  | .hbm, ⟨110, _⟩ => ⟨S100000x1, .f32⟩
  | .hbm, ⟨111, _⟩ => ⟨S100000, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call0_cst : Ref sig .tc := ⟨.hbm, 55, rfl⟩
abbrev main_call0_v0 : Ref sig .tc := ⟨.hbm, 56, rfl⟩
abbrev main_v33 : Ref sig .tc := ⟨.hbm, 57, rfl⟩
abbrev main_c_4 : Ref sig .tc := ⟨.hbm, 58, rfl⟩
abbrev main_v34 : Ref sig .tc := ⟨.hbm, 59, rfl⟩
abbrev main_v35 : Ref sig .tc := ⟨.hbm, 60, rfl⟩
abbrev main_c_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_7 : Ref sig .tc := ⟨.hbm, 71, rfl⟩
abbrev main_v44 : Ref sig .tc := ⟨.hbm, 72, rfl⟩
abbrev main_cst_8 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_9 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call1_cst : Ref sig .tc := ⟨.hbm, 89, rfl⟩
abbrev main_call1_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_call2_cst : Ref sig .tc := ⟨.hbm, 96, rfl⟩
abbrev main_call2_v0 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_10 : Ref sig .tc := ⟨.hbm, 105, rfl⟩
abbrev main_v71 : Ref sig .tc := ⟨.hbm, 106, rfl⟩
abbrev main_v72 : Ref sig .tc := ⟨.hbm, 107, rfl⟩
abbrev main_cst_11 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  dot_S100000x16_S16x128_S100000x128_1_0_0_1_n_n_wf : DotDims.WF S100000x16 S16x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The idealized kernel's run with its result named.

  The program is four kernel launches among stretches of host operations. Its execution is followed boundary by
  boundary: after each stretch and after each launch every buffer that outlives a launch has known contents — a
  stretch leaves the host operations' values, a launch leaves in each of its arrays what its write-backs left and
  everything else as it was. Every weakly fair execution terminates without a fault, and at the end the result
  buffer holds the last boundary's contents while each argument array is as it was launched.
-/
import proofs.«178376_j41558103556527_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the argument arrays end as launched. -/
theorem run : θ_run defs (onTc (τ := τ) (main (F := F))) ⟨m, fun _ => 0, ρ⟩ (fun r => ∀ c : Dev nD,
      r.2.mem ((c.tc : Thread nD τ).loc main_v38) = W8 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v38 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.KernelIdeal.RunValue

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«178376_j41558103556527_1_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.EncoderValue.lean ====
/-
  The node encoder as one whole-array function.

  The first launch computes, for each block of 5000 consecutive rows, the product of that block of the node features
  with the 16×128 encoder matrix plus the bias row, and writes the block of the result back. Row r of the result
  therefore depends only on row r of the features:

      enc x W b (r, j) = (∑ k, x (r, k) · W (k, j)) + b (0, j).

  The twenty blocks tile the 100000 rows, so after the launch the whole result array is this function of the arrays
  the launch found, whatever they are.
-/
import proofs.«178376_j41558103556527_1_alg».proof.Proof.Gen.KernelIdeal.Frame
import proofs.«178376_j41558103556527_1_alg».proof.Proof.LibAffineBlock
import Idealize.ShloMosaic.Lib.Pipeline.Value
import Idealize.ShloMosaic.Lib.ValueIdx

set_option maxRecDepth 16384

noncomputable section

open scoped BigOperators

namespace Cert.KernelIdeal.EncoderValue

open Idealize.ShloMosaic Idealize.ShloMosaic.TcCoe Idealize.ShloMosaic.ValueIdx Idealize.SL.Sem
open Cert.KernelIdeal Cert.KernelIdeal.Gen

/-- The two zero offsets, however spelt. -/
theorem hz : (![0, 0] : Fin 2 → Nat) = fun _ => 0 := funext fun a => by fin_cases a <;> rfl

/-- The encoder's value: the features times the matrix, plus the bias row. -/
def enc (x : S100000x16.Idx → EReal) (w : S16x128.Idx → EReal) (b : S1x128.Idx → EReal) : S100000x128.Idx → EReal :=
  fun i => (∑ k : Fin 16, x (ix2 (i 0) k) * w (ix2 k (i 1))) + b (ix2 (0 : Fin 1) (i 1))

/-- What the body stores, read at row p and column q of the block: the block's row p times the matrix, plus the bias. -/
theorem pay_apply (x : Vec Ideal S5000x16 .f32) (w : Vec Ideal S16x128 .f32) (b : Vec Ideal S1x128 .f32)
    (p : Fin 5000) (q : Fin 128) :
    k0_pay1 x w b (ix2 p q) = (∑ k : Fin 16, x (ix2 p k) * w (ix2 k q)) + b (ix2 (0 : Fin 1) q) := by
  unfold k0_pay1
  refine (Cert.LibAffineBlock.affine_apply dot_S5000x16_S16x128_S5000x128_1_0_0_1_n_n rfl rfl rfl rfl rfl rfl none
    (truncf .bf16 x bitsLt_bf16_f32) (truncf .bf16 w bitsLt_bf16_f32) (shapeCast S1x128 b shapeCasts_S1x128_S1x128)
    broadcasts_S1x128_S5000x128 p q).trans ?_
  rw [shapeCast_self]
  rfl

variable (V : (c : Dev nD) → (b : Ref sig .tc) → Buf (Elt Ideal) ((c : Thread nD τ).loc b))

/-- The printed index maps over the grid: the row-blocked windows sit at block row t, the others at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK is block t of the encoder's value of the arrays the launch found. -/
theorem flushed_eq (c : Dev nD) (t : Fin cfg0.N) :
    (dat0 V c).flushed 3 t = ((cfg0.win 3).blk t).view.read (Elt Ideal)
      (enc (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S5000x16) hz, View.ld_unit_zero (S := S16x128) hz, View.ld_unit_zero (S := S1x128) hz]
  obtain ⟨e00, e01, e10, e11, e20, e21, e30, e31⟩ := idx_facts t
  funext j
  obtain ⟨p, q, rfl⟩ : ∃ (p : Fin 5000) (q : Fin 128), j = ix2 p q := ⟨j 0, j 1, eq_ix2 j⟩
  have ht : t.val < 20 := by have h := t.isLt; have hN : cfg0.N = 20 := N_0; omega
  have hp : p.val < 5000 := p.isLt
  let r : Fin 100000 := ⟨t.val * 5000 + p.val, by omega⟩
  have h3 : ((cfg0.win 3).blk t).view.emb (ix2 p q) = ix2 r q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  have h0 : ∀ k : Fin 16, ((cfg0.win 0).blk t).view.emb (ix2 p k) = ix2 r k := fun k => by
    funext a; apply Fin.ext
    match a with
    | ⟨0, _⟩ => show win0_0.index t (0 : Fin 2) * 5000 + 1 * p.val = t.val * 5000 + p.val; omega
    | ⟨1, _⟩ => show win0_0.index t (1 : Fin 2) * 16 + 1 * k.val = k.val; omega
  have h1 : ∀ k : Fin 16, ((cfg0.win 1).blk t).view.emb (ix2 k q) = ix2 k q := fun k => by
    funext a; apply Fin.ext
    match a with
    | ⟨0, _⟩ => show win0_1.index t (0 : Fin 2) * 16 + 1 * k.val = k.val; omega
    | ⟨1, _⟩ => show win0_1.index t (1 : Fin 2) * 128 + 1 * q.val = q.val; omega
  have h2 : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 128 + 1 * q.val = q.val; omega
  have r0 : ∀ k : Fin 16, (iblk0 V c 0 t : S5000x16.Idx → EReal) (ix2 p k)
      = (V c (Pipeline.arrRef spec0 0) : S100000x16.Idx → EReal) (ix2 r k) := fun k => by
    show V c (Pipeline.arrRef spec0 0) (((cfg0.win 0).blk t).view.emb (ix2 p k)) = _
    rw [h0 k]
  have r1 : ∀ k : Fin 16, (iblk0 V c 1 t : S16x128.Idx → EReal) (ix2 k q)
      = (V c (Pipeline.arrRef spec0 1) : S16x128.Idx → EReal) (ix2 k q) := fun k => by
    show V c (Pipeline.arrRef spec0 1) (((cfg0.win 1).blk t).view.emb (ix2 k q)) = _
    rw [h1 k]
  have r2 : (iblk0 V c 2 t : S1x128.Idx → EReal) (ix2 (0 : Fin 1) q)
      = (V c (Pipeline.arrRef spec0 2) : S1x128.Idx → EReal) (ix2 (0 : Fin 1) q) := by
    show V c (Pipeline.arrRef spec0 2) (((cfg0.win 2).blk t).view.emb (ix2 (0 : Fin 1) q)) = _
    rw [h2]
  have r3 : ((cfg0.win 3).blk t).view.read (Elt Ideal)
        (enc (V c (Pipeline.arrRef spec0 0)) (V c (Pipeline.arrRef spec0 1)) (V c (Pipeline.arrRef spec0 2))) (ix2 p q)
      = enc (V c (Pipeline.arrRef spec0 0)) (V c (Pipeline.arrRef spec0 1)) (V c (Pipeline.arrRef spec0 2)) (ix2 r q) := by
    show enc _ _ _ (((cfg0.win 3).blk t).view.emb (ix2 p q)) = _
    rw [h3]
  refine (pay_apply (iblk0 V c 0 t) (iblk0 V c 1 t) (iblk0 V c 2 t) p q).trans ?_
  rw [r3, r2]
  simp only [r0, r1]
  rfl

/-- An index of the result array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v14).slice (win0_3.rect t)).set ↔ _
  rw [View.set_slice_whole, Rect.mem_set_unit]
  exact Iff.rfl

/-- Every row of the result lies in the block of the point its row number divided by 5000 names. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨e00, e01, e10, e11, e20, e21, e30, e31⟩ := idx_facts t
  have et : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE RESULT ARRAY after the launch: the encoder's value of the arrays the launch found. -/
theorem final (c : Dev nD) :
    (dat0 V c).arrAt 3 cfg0.N
      = enc (V c (Pipeline.arrRef spec0 0)) (V c (Pipeline.arrRef spec0 1)) (V c (Pipeline.arrRef spec0 2)) :=
  (dat0 V c).arrAt_eq_of_cover 3 _ (fun t _ => flushed_eq V c t) cover

end Cert.KernelIdeal.EncoderValue

end
-- ==== Proof.LibColumnForms.lean ====
/-
  Four index forms of vector operations on the extended reals, at explicit coordinates and for any extents: the sum
  along the rows of a matrix started from zero, the cast of a vector to a one-column matrix, the broadcast of a
  one-column matrix along the rows, and the square root read at an index.
-/
import Idealize.ShloMosaic.Lib.ValueIdx
import Idealize.ShloMosaic.Lib.Pipeline.Value
import Idealize.ShloMosaic.PureOps.Ideal.Laws

noncomputable section

open scoped BigOperators

namespace Cert.Lib.ColumnForms

open Idealize.ShloMosaic Idealize.ShloMosaic.ValueIdx

variable {α : Type}

/-- The sum along the rows of an a×b array, started from the zero word, read at row r: the sum over the b columns
    of the entries of that row. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext ax; apply Fin.ext
  match ax with
  | ⟨0, _⟩ => rfl
  | ⟨1, _⟩ => rfl

/-- An [a] array cast to a column [a, 1] reads, at (r, z), the operand at r, whatever the unit coordinate z. -/
theorem shapeCast_a_a1_apply {a : Nat} (x : (⟨1, ![a]⟩ : Shape).Idx → α) (h : (⟨1, ![a]⟩ : Shape).ShapeCasts ⟨2, ![a, 1]⟩)
    (r : Fin a) (z : Fin 1) : shapeCast ⟨2, ![a, 1]⟩ x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A column [a, 1] broadcast to [a, b] reads, at (p, c), the column's entry of row p. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The square root of a vector reads, at an index, the square root of the entry. -/
theorem sqrt_apply {s : Shape} {φ : FTy} (a : FVec Ideal s φ) (i : s.Idx) : sqrt a i = Ideal.sqrt (a i) := rfl

end Cert.Lib.ColumnForms

end
-- ==== Proof.SageValue1.lean ====
/-
  One neighbour-averaging layer as one whole-array function.

  The launch takes the summed neighbour features agg, the node features h, the in-degree column deg, two 128×128
  matrices and a bias row. For each block of 5000 consecutive rows it divides each row of agg by max(deg, 1) of that
  row, multiplies the quotient by the first matrix and h by the second, adds the two products and the bias row, and
  keeps the positive part. Row r of the result depends only on row r of agg, h and deg:

      layer (r, j) = max (((∑ k, agg (r, k) / max (deg (r, 0)) 1 · Wl (k, j)) + ∑ k, h (r, k) · Wr (k, j)) + b (0, j)) 0.

  The twenty blocks tile the 100000 rows, so after the launch the whole result array is this function of the arrays
  the launch found, whatever they are.
-/
import proofs.«178376_j41558103556527_1_alg».proof.Proof.Gen.KernelIdeal.Frame
import proofs.«178376_j41558103556527_1_alg».proof.Proof.LibMatmulNN
import proofs.«178376_j41558103556527_1_alg».proof.Proof.LibColumnForms
import Idealize.ShloMosaic.Lib.Pipeline.Value
import Idealize.ShloMosaic.Lib.ValueIdx
import Idealize.ShloMosaic.Lib.ValueLayout

set_option maxRecDepth 16384

noncomputable section

open scoped BigOperators

namespace Cert.KernelIdeal.SageValue1

open Idealize.ShloMosaic Idealize.ShloMosaic.TcCoe Idealize.ShloMosaic.ValueIdx Idealize.SL.Sem
open Cert.KernelIdeal Cert.KernelIdeal.Gen

/-- The two zero offsets, however spelt. -/
theorem hz : (![0, 0] : Fin 2 → Nat) = fun _ => 0 := funext fun a => by fin_cases a <;> rfl

/-- The layer's value. The word 0x3F800000 is the number the degree is clamped below by; it is never evaluated. -/
def layer (agg h : S100000x128.Idx → EReal) (deg : S100000x1.Idx → EReal) (wl wr : S128x128.Idx → EReal)
    (b : S1x128.Idx → EReal) : S100000x128.Idx → EReal :=
  fun i => max (((∑ k : Fin 128, Ideal.div (agg (ix2 (i 0) k)) (max (deg (ix2 (i 0) (0 : Fin 1))) (Ideal.ofBits .f32 0x3F800000#32)) * wl (ix2 k (i 1)))
      + ∑ k : Fin 128, h (ix2 (i 0) k) * wr (ix2 k (i 1))) + b (ix2 (0 : Fin 1) (i 1))) 0

/-- Two products into zero accumulators, added; a bias row repeated over the rows, added; the positive part: read at
    row p and column q. -/
theorem tile_apply {φ₁ φ₂ φ₃ φ₄ : FTy} (x : FVec Ideal S5000x128 φ₁) (a : FVec Ideal S5000x128 φ₂)
    (wl : FVec Ideal S128x128 φ₃) (wr : FVec Ideal S128x128 φ₄) (b : FVec Ideal S1x128 .f32) (p : Fin 5000) (q : Fin 128) :
    maximumf
        (addf (addf (matmul dot_S5000x128_S128x128_S5000x128_1_0_0_1_n_n none x wl (constant (F := Ideal) S5000x128 .f32 0x00000000#32))
                    (matmul dot_S5000x128_S128x128_S5000x128_1_0_0_1_n_n none a wr (constant (F := Ideal) S5000x128 .f32 0x00000000#32)))
              (broadcastTo S5000x128 b broadcasts_S1x128_S5000x128))
        (broadcast S5000x128 (Scalar.ofBits (F := Ideal) .f32 0x00000000#32)) (ix2 p q)
      = max (((∑ k : Fin 128, x (ix2 p k) * wl (ix2 k q)) + ∑ k : Fin 128, a (ix2 p k) * wr (ix2 k q)) + b (ix2 (0 : Fin 1) q)) 0 := by
  rw [maximumf_apply, broadcast_apply, addf_apply, addf_apply,
    Cert.LibMatmulNN.matmul_zero_apply' dot_S5000x128_S128x128_S5000x128_1_0_0_1_n_n rfl rfl rfl rfl rfl rfl none x wl p q,
    Cert.LibMatmulNN.matmul_zero_apply' dot_S5000x128_S128x128_S5000x128_1_0_0_1_n_n rfl rfl rfl rfl rfl rfl none a wr p q,
    broadcastTo_1b_ab_apply b broadcasts_S1x128_S5000x128 p q]
  show max _ (Ideal.ofBits .f32 0x00000000#32) = max _ 0
  rw [Ideal.ofBits_zero_f32]

/-- What the body stores, read at row p and column q of the block. -/
theorem pay_apply (dg : Vec Ideal S5000x1 .f32) (ag hh : Vec Ideal S5000x128 .f32) (wl wr : Vec Ideal S128x128 .f32)
    (b : Vec Ideal S1x128 .f32) (p : Fin 5000) (q : Fin 128) :
    k1_pay1 dg ag hh wl wr b (ix2 p q)
      = max (((∑ k : Fin 128, Ideal.div (ag (ix2 p k)) (max (dg (ix2 p (0 : Fin 1))) (Ideal.ofBits .f32 0x3F800000#32)) * wl (ix2 k q))
          + ∑ k : Fin 128, hh (ix2 p k) * wr (ix2 k q)) + b (ix2 (0 : Fin 1) q)) 0 := by
  unfold k1_pay1
  refine (tile_apply
    (truncf .bf16 (divf (shapeCast S5000x128 ag shapeCasts_S5000x128_S5000x128)
      (broadcastTo S5000x128 (maximumf (shapeCast S5000x1 dg shapeCasts_S5000x1_S5000x1)
        (broadcast S5000x1 (Scalar.ofBits (F := Ideal) .f32 0x3F800000#32))) broadcasts_S5000x1_S5000x128)) bitsLt_bf16_f32)
    (truncf .bf16 (shapeCast S5000x128 hh shapeCasts_S5000x128_S5000x128) bitsLt_bf16_f32)
    (truncf .bf16 wl bitsLt_bf16_f32) (truncf .bf16 wr bitsLt_bf16_f32)
    (shapeCast S1x128 b shapeCasts_S1x128_S1x128) p q).trans ?_
  simp only [truncf_apply, divf_apply, shapeCast_self, Cert.Lib.ColumnForms.broadcastTo_a1_ab_apply, maximumf_apply,
    broadcast_apply]
  rfl

variable (V : (c : Dev nD) → (b : Ref sig .tc) → Buf (Elt Ideal) ((c : Thread nD τ).loc b))

/-- The printed index maps over the grid: the row-blocked windows sit at block row t, the others at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

set_option maxHeartbeats 1600000 in
/-- WHAT POINT t WRITES BACK is block t of the layer's value of the arrays the launch found. -/
theorem flushed_eq (c : Dev nD) (t : Fin cfg1.N) :
    (dat1 V c).flushed 6 t = ((cfg1.win 6).blk t).view.read (Elt Ideal)
      (layer (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S128x128) hz,
    View.ld_unit_zero (S := S1x128) hz]
  obtain ⟨e00, e01, e10, e11, e20, e21, e30, e31, e40, e41, e50, e51, e60, e61⟩ := idx_facts t
  funext j
  obtain ⟨p, q, rfl⟩ : ∃ (p : Fin 5000) (q : Fin 128), j = ix2 p q := ⟨j 0, j 1, eq_ix2 j⟩
  have ht : t.val < 20 := by have h := t.isLt; have hN : cfg1.N = 20 := N_1; omega
  have hp : p.val < 5000 := p.isLt
  let r : Fin 100000 := ⟨t.val * 5000 + p.val, by omega⟩
  have h6 : ((cfg1.win 6).blk t).view.emb (ix2 p q) = ix2 r q := by
    funext a; apply Fin.ext
    match a with
    | ⟨0, _⟩ => show win1_6.index t (0 : Fin 2) * 5000 + 1 * p.val = t.val * 5000 + p.val; omega
    | ⟨1, _⟩ => show win1_6.index t (1 : Fin 2) * 128 + 1 * q.val = q.val; omega
  have h0 : ∀ k : Fin 128, ((cfg1.win 0).blk t).view.emb (ix2 p k) = ix2 r k := fun k => by
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have h1 : ∀ k : Fin 128, ((cfg1.win 1).blk t).view.emb (ix2 p k) = ix2 r k := fun k => by
    funext a; apply Fin.ext
    match a with
    | ⟨0, _⟩ => show win1_1.index t (0 : Fin 2) * 5000 + 1 * p.val = t.val * 5000 + p.val; omega
    | ⟨1, _⟩ => show win1_1.index t (1 : Fin 2) * 128 + 1 * k.val = k.val; omega
  have h2 : ((cfg1.win 2).blk t).view.emb (ix2 p (0 : Fin 1)) = ix2 r (0 : Fin 1) := by
    funext a; apply Fin.ext
    match a with
    | ⟨0, _⟩ => show win1_2.index t (0 : Fin 2) * 5000 + 1 * p.val = t.val * 5000 + p.val; omega
    | ⟨1, _⟩ => show win1_2.index t (1 : Fin 2) * 1 + 1 * 0 = 0; omega
  have h3 : ∀ k : Fin 128, ((cfg1.win 3).blk t).view.emb (ix2 k q) = ix2 k q := fun k => by
    funext a; apply Fin.ext
    match a with
    | ⟨0, _⟩ => show win1_3.index t (0 : Fin 2) * 128 + 1 * k.val = k.val; omega
    | ⟨1, _⟩ => show win1_3.index t (1 : Fin 2) * 128 + 1 * q.val = q.val; omega
  have h4 : ∀ k : Fin 128, ((cfg1.win 4).blk t).view.emb (ix2 k q) = ix2 k q := fun k => by
    funext a; apply Fin.ext
    match a with
    | ⟨0, _⟩ => show win1_4.index t (0 : Fin 2) * 128 + 1 * k.val = k.val; omega
    | ⟨1, _⟩ => show win1_4.index t (1 : Fin 2) * 128 + 1 * q.val = q.val; omega
  have h5 : ((cfg1.win 5).blk t).view.emb (ix2 (0 : Fin 1) q) = ix2 (0 : Fin 1) q := by
    funext a; apply Fin.ext
    match a with
    | ⟨0, _⟩ => show win1_5.index t (0 : Fin 2) * 1 + 1 * 0 = 0; omega
    | ⟨1, _⟩ => show win1_5.index t (1 : Fin 2) * 128 + 1 * q.val = q.val; omega
  have r0 : ∀ k : Fin 128, (iblk1 V c 0 t : S5000x128.Idx → EReal) (ix2 p k)
      = (V c (Pipeline.arrRef spec1 0) : S100000x128.Idx → EReal) (ix2 r k) := fun k => by
    show V c (Pipeline.arrRef spec1 0) (((cfg1.win 0).blk t).view.emb (ix2 p k)) = _
    rw [h0 k]
  have r1 : ∀ k : Fin 128, (iblk1 V c 1 t : S5000x128.Idx → EReal) (ix2 p k)
      = (V c (Pipeline.arrRef spec1 1) : S100000x128.Idx → EReal) (ix2 r k) := fun k => by
    show V c (Pipeline.arrRef spec1 1) (((cfg1.win 1).blk t).view.emb (ix2 p k)) = _
    rw [h1 k]
  have r2 : (iblk1 V c 2 t : S5000x1.Idx → EReal) (ix2 p (0 : Fin 1))
      = (V c (Pipeline.arrRef spec1 2) : S100000x1.Idx → EReal) (ix2 r (0 : Fin 1)) := by
    show V c (Pipeline.arrRef spec1 2) (((cfg1.win 2).blk t).view.emb (ix2 p (0 : Fin 1))) = _
    rw [h2]
  have r3 : ∀ k : Fin 128, (iblk1 V c 3 t : S128x128.Idx → EReal) (ix2 k q)
      = (V c (Pipeline.arrRef spec1 3) : S128x128.Idx → EReal) (ix2 k q) := fun k => by
    show V c (Pipeline.arrRef spec1 3) (((cfg1.win 3).blk t).view.emb (ix2 k q)) = _
    rw [h3 k]
  have r4 : ∀ k : Fin 128, (iblk1 V c 4 t : S128x128.Idx → EReal) (ix2 k q)
      = (V c (Pipeline.arrRef spec1 4) : S128x128.Idx → EReal) (ix2 k q) := fun k => by
    show V c (Pipeline.arrRef spec1 4) (((cfg1.win 4).blk t).view.emb (ix2 k q)) = _
    rw [h4 k]
  have r5 : (iblk1 V c 5 t : S1x128.Idx → EReal) (ix2 (0 : Fin 1) q)
      = (V c (Pipeline.arrRef spec1 5) : S1x128.Idx → EReal) (ix2 (0 : Fin 1) q) := by
    show V c (Pipeline.arrRef spec1 5) (((cfg1.win 5).blk t).view.emb (ix2 (0 : Fin 1) q)) = _
    rw [h5]
  have r6 : ((cfg1.win 6).blk t).view.read (Elt Ideal)
        (layer (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))) (ix2 p q)
      = layer (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) (ix2 r q) := by
    show layer _ _ _ _ _ _ (((cfg1.win 6).blk t).view.emb (ix2 p q)) = _
    rw [h6]
  refine (pay_apply (iblk1 V c 2 t) (iblk1 V c 0 t) (iblk1 V c 1 t) (iblk1 V c 3 t) (iblk1 V c 4 t) (iblk1 V c 5 t) p q).trans ?_
  rw [r6, r5, r2]
  simp only [r0, r1, r3, r4]
  rfl

/-- An index of the result array is in point t's block iff each coordinate is in the block's range on its axis. -/
theorem mem_blk (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v25).slice (win1_6.rect t)).set ↔ _
  rw [View.set_slice_whole, Rect.mem_set_unit]
  exact Iff.rfl

/-- Every row of the result lies in the block of the point its row number divided by 5000 names. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  let t : Fin cfg1.N := ⟨(i 0).val / 5000, by rw [show cfg1.N = 20 from N_1]; omega⟩
  obtain ⟨e00, e01, e10, e11, e20, e21, e30, e31, e40, e41, e50, e51, e60, e61⟩ := idx_facts t
  have et : t.val = (i 0).val / 5000 := rfl
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE RESULT ARRAY after the launch: the layer's value of the arrays the launch found. -/
theorem final (c : Dev nD) :
    (dat1 V c).arrAt 6 cfg1.N
      = layer (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  (dat1 V c).arrAt_eq_of_cover 6 _ (fun t _ => flushed_eq V c t) cover

end Cert.KernelIdeal.SageValue1

end
-- ==== Proof.SageValue2.lean ====
/-
  One neighbour-averaging layer as one whole-array function.

  The launch takes the summed neighbour features agg, the node features h, the in-degree column deg, two 128×128
  matrices and a bias row. For each block of 5000 consecutive rows it divides each row of agg by max(deg, 1) of that
  row, multiplies the quotient by the first matrix and h by the second, adds the two products and the bias row, and
  keeps the positive part. Row r of the result depends only on row r of agg, h and deg:

      layer (r, j) = max (((∑ k, agg (r, k) / max (deg (r, 0)) 1 · Wl (k, j)) + ∑ k, h (r, k) · Wr (k, j)) + b (0, j)) 0.

  The twenty blocks tile the 100000 rows, so after the launch the whole result array is this function of the arrays
  the launch found, whatever they are.
-/
import proofs.«178376_j41558103556527_1_alg».proof.Proof.Gen.KernelIdeal.Frame
import proofs.«178376_j41558103556527_1_alg».proof.Proof.LibMatmulNN
import proofs.«178376_j41558103556527_1_alg».proof.Proof.LibColumnForms
import Idealize.ShloMosaic.Lib.Pipeline.Value
import Idealize.ShloMosaic.Lib.ValueIdx
import Idealize.ShloMosaic.Lib.ValueLayout

set_option maxRecDepth 16384

noncomputable section

open scoped BigOperators

namespace Cert.KernelIdeal.SageValue2

open Idealize.ShloMosaic Idealize.ShloMosaic.TcCoe Idealize.ShloMosaic.ValueIdx Idealize.SL.Sem
open Cert.KernelIdeal Cert.KernelIdeal.Gen

/-- The two zero offsets, however spelt. -/
theorem hz : (![0, 0] : Fin 2 → Nat) = fun _ => 0 := funext fun a => by fin_cases a <;> rfl

/-- The layer's value. The word 0x3F800000 is the number the degree is clamped below by; it is never evaluated. -/
def layer (agg h : S100000x128.Idx → EReal) (deg : S100000x1.Idx → EReal) (wl wr : S128x128.Idx → EReal)
    (b : S1x128.Idx → EReal) : S100000x128.Idx → EReal :=
  fun i => max (((∑ k : Fin 128, Ideal.div (agg (ix2 (i 0) k)) (max (deg (ix2 (i 0) (0 : Fin 1))) (Ideal.ofBits .f32 0x3F800000#32)) * wl (ix2 k (i 1)))
      + ∑ k : Fin 128, h (ix2 (i 0) k) * wr (ix2 k (i 1))) + b (ix2 (0 : Fin 1) (i 1))) 0

/-- Two products into zero accumulators, added; a bias row repeated over the rows, added; the positive part: read at
    row p and column q. -/
theorem tile_apply {φ₁ φ₂ φ₃ φ₄ : FTy} (x : FVec Ideal S5000x128 φ₁) (a : FVec Ideal S5000x128 φ₂)
    (wl : FVec Ideal S128x128 φ₃) (wr : FVec Ideal S128x128 φ₄) (b : FVec Ideal S1x128 .f32) (p : Fin 5000) (q : Fin 128) :
    maximumf
        (addf (addf (matmul dot_S5000x128_S128x128_S5000x128_1_0_0_1_n_n none x wl (constant (F := Ideal) S5000x128 .f32 0x00000000#32))
                    (matmul dot_S5000x128_S128x128_S5000x128_1_0_0_1_n_n none a wr (constant (F := Ideal) S5000x128 .f32 0x00000000#32)))
              (broadcastTo S5000x128 b broadcasts_S1x128_S5000x128))
        (broadcast S5000x128 (Scalar.ofBits (F := Ideal) .f32 0x00000000#32)) (ix2 p q)
      = max (((∑ k : Fin 128, x (ix2 p k) * wl (ix2 k q)) + ∑ k : Fin 128, a (ix2 p k) * wr (ix2 k q)) + b (ix2 (0 : Fin 1) q)) 0 := by
  rw [maximumf_apply, broadcast_apply, addf_apply, addf_apply,
    Cert.LibMatmulNN.matmul_zero_apply' dot_S5000x128_S128x128_S5000x128_1_0_0_1_n_n rfl rfl rfl rfl rfl rfl none x wl p q,
    Cert.LibMatmulNN.matmul_zero_apply' dot_S5000x128_S128x128_S5000x128_1_0_0_1_n_n rfl rfl rfl rfl rfl rfl none a wr p q,
    broadcastTo_1b_ab_apply b broadcasts_S1x128_S5000x128 p q]
  show max _ (Ideal.ofBits .f32 0x00000000#32) = max _ 0
  rw [Ideal.ofBits_zero_f32]

/-- What the body stores, read at row p and column q of the block. -/
theorem pay_apply (dg : Vec Ideal S5000x1 .f32) (ag hh : Vec Ideal S5000x128 .f32) (wl wr : Vec Ideal S128x128 .f32)
    (b : Vec Ideal S1x128 .f32) (p : Fin 5000) (q : Fin 128) :
    k2_pay1 dg ag hh wl wr b (ix2 p q)
      = max (((∑ k : Fin 128, Ideal.div (ag (ix2 p k)) (max (dg (ix2 p (0 : Fin 1))) (Ideal.ofBits .f32 0x3F800000#32)) * wl (ix2 k q))
          + ∑ k : Fin 128, hh (ix2 p k) * wr (ix2 k q)) + b (ix2 (0 : Fin 1) q)) 0 := by
  unfold k2_pay1
  refine (tile_apply
    (truncf .bf16 (divf (shapeCast S5000x128 ag shapeCasts_S5000x128_S5000x128)
      (broadcastTo S5000x128 (maximumf (shapeCast S5000x1 dg shapeCasts_S5000x1_S5000x1)
        (broadcast S5000x1 (Scalar.ofBits (F := Ideal) .f32 0x3F800000#32))) broadcasts_S5000x1_S5000x128)) bitsLt_bf16_f32)
    (truncf .bf16 (shapeCast S5000x128 hh shapeCasts_S5000x128_S5000x128) bitsLt_bf16_f32)
    (truncf .bf16 wl bitsLt_bf16_f32) (truncf .bf16 wr bitsLt_bf16_f32)
    (shapeCast S1x128 b shapeCasts_S1x128_S1x128) p q).trans ?_
  simp only [truncf_apply, divf_apply, shapeCast_self, Cert.Lib.ColumnForms.broadcastTo_a1_ab_apply, maximumf_apply,
    broadcast_apply]
  rfl

variable (V : (c : Dev nD) → (b : Ref sig .tc) → Buf (Elt Ideal) ((c : Thread nD τ).loc b))

/-- The printed index maps over the grid: the row-blocked windows sit at block row t, the others at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

set_option maxHeartbeats 1600000 in
/-- WHAT POINT t WRITES BACK is block t of the layer's value of the arrays the launch found. -/
theorem flushed_eq (c : Dev nD) (t : Fin cfg2.N) :
    (dat2 V c).flushed 6 t = ((cfg2.win 6).blk t).view.read (Elt Ideal)
      (layer (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz, View.ld_unit_zero (S := S128x128) hz,
    View.ld_unit_zero (S := S1x128) hz]
  obtain ⟨e00, e01, e10, e11, e20, e21, e30, e31, e40, e41, e50, e51, e60, e61⟩ := idx_facts t
  funext j
  obtain ⟨p, q, rfl⟩ : ∃ (p : Fin 5000) (q : Fin 128), j = ix2 p q := ⟨j 0, j 1, eq_ix2 j⟩
  have ht : t.val < 20 := by have h := t.isLt; have hN : cfg2.N = 20 := N_2; omega
  have hp : p.val < 5000 := p.isLt
  let r : Fin 100000 := ⟨t.val * 5000 + p.val, by omega⟩
  have h6 : ((cfg2.win 6).blk t).view.emb (ix2 p q) = ix2 r q := by
    funext a; apply Fin.ext
    match a with
    | ⟨0, _⟩ => show win2_6.index t (0 : Fin 2) * 5000 + 1 * p.val = t.val * 5000 + p.val; omega
    | ⟨1, _⟩ => show win2_6.index t (1 : Fin 2) * 128 + 1 * q.val = q.val; omega
  have h0 : ∀ k : Fin 128, ((cfg2.win 0).blk t).view.emb (ix2 p k) = ix2 r k := fun k => by
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  have h1 : ∀ k : Fin 128, ((cfg2.win 1).blk t).view.emb (ix2 p k) = ix2 r k := fun k => by
    funext a; apply Fin.ext
    match a with
    | ⟨0, _⟩ => show win2_1.index t (0 : Fin 2) * 5000 + 1 * p.val = t.val * 5000 + p.val; omega
    | ⟨1, _⟩ => show win2_1.index t (1 : Fin 2) * 128 + 1 * k.val = k.val; omega
  have h2 : ((cfg2.win 2).blk t).view.emb (ix2 p (0 : Fin 1)) = ix2 r (0 : Fin 1) := by
    funext a; apply Fin.ext
    match a with
    | ⟨0, _⟩ => show win2_2.index t (0 : Fin 2) * 5000 + 1 * p.val = t.val * 5000 + p.val; omega
    | ⟨1, _⟩ => show win2_2.index t (1 : Fin 2) * 1 + 1 * 0 = 0; omega
  have h3 : ∀ k : Fin 128, ((cfg2.win 3).blk t).view.emb (ix2 k q) = ix2 k q := fun k => by
    funext a; apply Fin.ext
    match a with
    | ⟨0, _⟩ => show win2_3.index t (0 : Fin 2) * 128 + 1 * k.val = k.val; omega
    | ⟨1, _⟩ => show win2_3.index t (1 : Fin 2) * 128 + 1 * q.val = q.val; omega
  have h4 : ∀ k : Fin 128, ((cfg2.win 4).blk t).view.emb (ix2 k q) = ix2 k q := fun k => by
    funext a; apply Fin.ext
    match a with
    | ⟨0, _⟩ => show win2_4.index t (0 : Fin 2) * 128 + 1 * k.val = k.val; omega
    | ⟨1, _⟩ => show win2_4.index t (1 : Fin 2) * 128 + 1 * q.val = q.val; omega
  have h5 : ((cfg2.win 5).blk t).view.emb (ix2 (0 : Fin 1) q) = ix2 (0 : Fin 1) q := by
    funext a; apply Fin.ext
    match a with
    | ⟨0, _⟩ => show win2_5.index t (0 : Fin 2) * 1 + 1 * 0 = 0; omega
    | ⟨1, _⟩ => show win2_5.index t (1 : Fin 2) * 128 + 1 * q.val = q.val; omega
  have r0 : ∀ k : Fin 128, (iblk2 V c 0 t : S5000x128.Idx → EReal) (ix2 p k)
      = (V c (Pipeline.arrRef spec2 0) : S100000x128.Idx → EReal) (ix2 r k) := fun k => by
    show V c (Pipeline.arrRef spec2 0) (((cfg2.win 0).blk t).view.emb (ix2 p k)) = _
    rw [h0 k]
  have r1 : ∀ k : Fin 128, (iblk2 V c 1 t : S5000x128.Idx → EReal) (ix2 p k)
      = (V c (Pipeline.arrRef spec2 1) : S100000x128.Idx → EReal) (ix2 r k) := fun k => by
    show V c (Pipeline.arrRef spec2 1) (((cfg2.win 1).blk t).view.emb (ix2 p k)) = _
    rw [h1 k]
  have r2 : (iblk2 V c 2 t : S5000x1.Idx → EReal) (ix2 p (0 : Fin 1))
      = (V c (Pipeline.arrRef spec2 2) : S100000x1.Idx → EReal) (ix2 r (0 : Fin 1)) := by
    show V c (Pipeline.arrRef spec2 2) (((cfg2.win 2).blk t).view.emb (ix2 p (0 : Fin 1))) = _
    rw [h2]
  have r3 : ∀ k : Fin 128, (iblk2 V c 3 t : S128x128.Idx → EReal) (ix2 k q)
      = (V c (Pipeline.arrRef spec2 3) : S128x128.Idx → EReal) (ix2 k q) := fun k => by
    show V c (Pipeline.arrRef spec2 3) (((cfg2.win 3).blk t).view.emb (ix2 k q)) = _
    rw [h3 k]
  have r4 : ∀ k : Fin 128, (iblk2 V c 4 t : S128x128.Idx → EReal) (ix2 k q)
      = (V c (Pipeline.arrRef spec2 4) : S128x128.Idx → EReal) (ix2 k q) := fun k => by
    show V c (Pipeline.arrRef spec2 4) (((cfg2.win 4).blk t).view.emb (ix2 k q)) = _
    rw [h4 k]
  have r5 : (iblk2 V c 5 t : S1x128.Idx → EReal) (ix2 (0 : Fin 1) q)
      = (V c (Pipeline.arrRef spec2 5) : S1x128.Idx → EReal) (ix2 (0 : Fin 1) q) := by
    show V c (Pipeline.arrRef spec2 5) (((cfg2.win 5).blk t).view.emb (ix2 (0 : Fin 1) q)) = _
    rw [h5]
  have r6 : ((cfg2.win 6).blk t).view.read (Elt Ideal)
        (layer (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5))) (ix2 p q)
      = layer (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) (ix2 r q) := by
    show layer _ _ _ _ _ _ (((cfg2.win 6).blk t).view.emb (ix2 p q)) = _
    rw [h6]
  refine (pay_apply (iblk2 V c 2 t) (iblk2 V c 0 t) (iblk2 V c 1 t) (iblk2 V c 3 t) (iblk2 V c 4 t) (iblk2 V c 5 t) p q).trans ?_
  rw [r6, r5, r2]
  simp only [r0, r1, r3, r4]
  rfl

/-- An index of the result array is in point t's block iff each coordinate is in the block's range on its axis. -/
theorem mem_blk (t : Fin cfg2.N) (i : S100000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v36).slice (win2_6.rect t)).set ↔ _
  rw [View.set_slice_whole, Rect.mem_set_unit]
  exact Iff.rfl

/-- Every row of the result lies in the block of the point its row number divided by 5000 names. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  let t : Fin cfg2.N := ⟨(i 0).val / 5000, by rw [show cfg2.N = 20 from N_2]; omega⟩
  obtain ⟨e00, e01, e10, e11, e20, e21, e30, e31, e40, e41, e50, e51, e60, e61⟩ := idx_facts t
  have et : t.val = (i 0).val / 5000 := rfl
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- THE RESULT ARRAY after the launch: the layer's value of the arrays the launch found. -/
theorem final (c : Dev nD) :
    (dat2 V c).arrAt 6 cfg2.N
      = layer (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) :=
  (dat2 V c).arrAt_eq_of_cover 6 _ (fun t _ => flushed_eq V c t) cover

end Cert.KernelIdeal.SageValue2

end
-- ==== Proof.HeadValue.lean ====
/-
  The prediction head as one whole-array function.

  The last launch takes the node features h, a 128×128 matrix with its bias row, and a 128×1 matrix with its 1×1 bias.
  For each block of 5000 consecutive rows it forms the hidden row max (h·W₁ + b₁) 0, its one logit
  (hidden·W₂) + b₂, and the logistic function of the logit. Row r of the result depends only on row r of h:

      head (r, 0) = logistic ((∑ k, max ((∑ l, h (r, l) · W₁ (l, k)) + b₁ (0, k)) 0 · W₂ (k, 0)) + b₂ (0, 0)).

  The twenty blocks tile the 100000 rows, so after the launch the whole result column is this function of the arrays
  the launch found, whatever they are.
-/
import proofs.«178376_j41558103556527_1_alg».proof.Proof.Gen.KernelIdeal.Frame
import proofs.«178376_j41558103556527_1_alg».proof.Proof.LibAffineBlock
import Idealize.ShloMosaic.Lib.Pipeline.Value
import Idealize.ShloMosaic.Lib.ValueIdx

set_option maxRecDepth 16384

noncomputable section

open scoped BigOperators

namespace Cert.KernelIdeal.HeadValue

open Idealize.ShloMosaic Idealize.ShloMosaic.TcCoe Idealize.ShloMosaic.ValueIdx Idealize.SL.Sem
open Cert.KernelIdeal Cert.KernelIdeal.Gen

/-- The two zero offsets, however spelt. -/
theorem hz : (![0, 0] : Fin 2 → Nat) = fun _ => 0 := funext fun a => by fin_cases a <;> rfl

/-- The head's value. -/
def head (h : S100000x128.Idx → EReal) (w1 : S128x128.Idx → EReal) (b1 : S1x128.Idx → EReal)
    (w2 : S128x1.Idx → EReal) (b2 : S1x1.Idx → EReal) : S100000x1.Idx → EReal :=
  fun i => Ideal.logistic ((∑ k : Fin 128, max ((∑ l : Fin 128, h (ix2 (i 0) l) * w1 (ix2 l k)) + b1 (ix2 (0 : Fin 1) k)) 0
      * w2 (ix2 k (i 1))) + b2 (ix2 (0 : Fin 1) (i 1)))

/-- The logistic function of a vector, read at an index. -/
theorem logistic_apply {s : Shape} {φ : FTy} (a : FVec Ideal s φ) (i : s.Idx) : logistic a i = Ideal.logistic (a i) := rfl

/-- A product plus a bias row, its positive part, a second product plus a 1×1 bias, and the logistic function: read
    at row p (and the one column q). -/
theorem tile_apply {φ₁ φ₂ φ₃ : FTy} (x : FVec Ideal S5000x128 φ₁) (w1 : FVec Ideal S128x128 φ₂) (b1 : FVec Ideal S1x128 .f32)
    (w2 : FVec Ideal S128x1 φ₃) (b2 : FVec Ideal S1x1 .f32) (p : Fin 5000) (q : Fin 1) :
    logistic (addf (matmul dot_S5000x128_S128x1_S5000x1_1_0_0_1_n_n none
        (truncf .bf16 (maximumf (addf (matmul dot_S5000x128_S128x128_S5000x128_1_0_0_1_n_n none x w1
            (constant (F := Ideal) S5000x128 .f32 0x00000000#32)) (broadcastTo S5000x128 b1 broadcasts_S1x128_S5000x128))
          (broadcast S5000x128 (Scalar.ofBits (F := Ideal) .f32 0x00000000#32))) bitsLt_bf16_f32)
        w2 (constant (F := Ideal) S5000x1 .f32 0x00000000#32)) (broadcastTo S5000x1 b2 broadcasts_S1x1_S5000x1)) (ix2 p q)
      = Ideal.logistic ((∑ k : Fin 128, max ((∑ l : Fin 128, x (ix2 p l) * w1 (ix2 l k)) + b1 (ix2 (0 : Fin 1) k)) 0 * w2 (ix2 k q))
          + b2 (ix2 (0 : Fin 1) q)) := by
  rw [logistic_apply]
  refine congrArg Ideal.logistic ?_
  refine (Cert.LibAffineBlock.affine_apply dot_S5000x128_S128x1_S5000x1_1_0_0_1_n_n rfl rfl rfl rfl rfl rfl none _ w2 b2
    broadcasts_S1x1_S5000x1 p q).trans ?_
  refine congrArg (· + b2 (ix2 (0 : Fin 1) q)) (Finset.sum_congr rfl fun k _ => ?_)
  refine congrArg (· * w2 (ix2 k q)) ?_
  rw [truncf_apply, maximumf_apply, broadcast_apply,
    Cert.LibAffineBlock.affine_apply dot_S5000x128_S128x128_S5000x128_1_0_0_1_n_n rfl rfl rfl rfl rfl rfl none x w1 b1
      broadcasts_S1x128_S5000x128 p k]
  show max _ (Ideal.ofBits .f32 0x00000000#32) = max _ 0
  rw [Ideal.ofBits_zero_f32]

/-- What the body stores, read at row p of the block. -/
theorem pay_apply (hh : Vec Ideal S5000x128 .f32) (w1 : Vec Ideal S128x128 .f32) (b1 : Vec Ideal S1x128 .f32)
    (w2 : Vec Ideal S128x1 .f32) (b2 : Vec Ideal S1x1 .f32) (p : Fin 5000) (q : Fin 1) :
    k3_pay1 hh w1 b1 w2 b2 (ix2 p q)
      = Ideal.logistic ((∑ k : Fin 128, max ((∑ l : Fin 128, hh (ix2 p l) * w1 (ix2 l k)) + b1 (ix2 (0 : Fin 1) k)) 0 * w2 (ix2 k q))
          + b2 (ix2 (0 : Fin 1) q)) := by
  unfold k3_pay1
  refine (tile_apply (truncf .bf16 (shapeCast S5000x128 hh shapeCasts_S5000x128_S5000x128) bitsLt_bf16_f32)
    (truncf .bf16 w1 bitsLt_bf16_f32) (shapeCast S1x128 b1 shapeCasts_S1x128_S1x128)
    (truncf .bf16 w2 bitsLt_bf16_f32) (shapeCast S1x1 b2 shapeCasts_S1x1_S1x1) p q).trans ?_
  simp only [truncf_apply, shapeCast_self]

variable (V : (c : Dev nD) → (b : Ref sig .tc) → Buf (Elt Ideal) ((c : Thread nD τ).loc b))

/-- The printed index maps over the grid: the row-blocked windows sit at block row t, the others at block 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

set_option maxHeartbeats 1600000 in
/-- WHAT POINT t WRITES BACK is block t of the head's value of the arrays the launch found. -/
theorem flushed_eq (c : Dev nD) (t : Fin cfg3.N) :
    (dat3 V c).flushed 5 t = ((cfg3.win 5).blk t).view.read (Elt Ideal)
      (head (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x128) hz, View.ld_unit_zero (S := S1x128) hz,
    View.ld_unit_zero (S := S128x1) hz, View.ld_unit_zero (S := S1x1) hz]
  obtain ⟨e00, e01, e10, e11, e20, e21, e30, e31, e40, e41, e50, e51⟩ := idx_facts t
  funext j
  obtain ⟨p, q, rfl⟩ : ∃ (p : Fin 5000) (q : Fin 1), j = ix2 p q := ⟨j 0, j 1, eq_ix2 j⟩
  have ht : t.val < 20 := by have h := t.isLt; have hN : cfg3.N = 20 := N_3; omega
  have hp : p.val < 5000 := p.isLt
  have hq : q.val = 0 := by omega
  let r : Fin 100000 := ⟨t.val * 5000 + p.val, by omega⟩
  have h5 : ((cfg3.win 5).blk t).view.emb (ix2 p q) = ix2 r q := by
    funext a; apply Fin.ext
    match a with
    | ⟨0, _⟩ => show win3_5.index t (0 : Fin 2) * 5000 + 1 * p.val = t.val * 5000 + p.val; omega
    | ⟨1, _⟩ => show win3_5.index t (1 : Fin 2) * 1 + 1 * q.val = q.val; omega
  have h0 : ∀ l : Fin 128, ((cfg3.win 0).blk t).view.emb (ix2 p l) = ix2 r l := fun l => by
    funext a; apply Fin.ext
    match a with
    | ⟨0, _⟩ => show win3_0.index t (0 : Fin 2) * 5000 + 1 * p.val = t.val * 5000 + p.val; omega
    | ⟨1, _⟩ => show win3_0.index t (1 : Fin 2) * 128 + 1 * l.val = l.val; omega
  have h1 : ∀ l k : Fin 128, ((cfg3.win 1).blk t).view.emb (ix2 l k) = ix2 l k := fun l k => by
    funext a; apply Fin.ext
    match a with
    | ⟨0, _⟩ => show win3_1.index t (0 : Fin 2) * 128 + 1 * l.val = l.val; omega
    | ⟨1, _⟩ => show win3_1.index t (1 : Fin 2) * 128 + 1 * k.val = k.val; omega
  have h2 : ∀ k : Fin 128, ((cfg3.win 2).blk t).view.emb (ix2 (0 : Fin 1) k) = ix2 (0 : Fin 1) k := fun k => by
    funext a; apply Fin.ext
    match a with
    | ⟨0, _⟩ => show win3_2.index t (0 : Fin 2) * 1 + 1 * 0 = 0; omega
    | ⟨1, _⟩ => show win3_2.index t (1 : Fin 2) * 128 + 1 * k.val = k.val; omega
  have h3 : ∀ k : Fin 128, ((cfg3.win 3).blk t).view.emb (ix2 k q) = ix2 k q := fun k => by
    funext a; apply Fin.ext
    match a with
    | ⟨0, _⟩ => show win3_3.index t (0 : Fin 2) * 128 + 1 * k.val = k.val; omega
    | ⟨1, _⟩ => show win3_3.index t (1 : Fin 2) * 1 + 1 * q.val = q.val; omega
  have h4 : ((cfg3.win 4).blk t).view.emb (ix2 (0 : Fin 1) q) = ix2 (0 : Fin 1) q := by
    funext a; apply Fin.ext
    match a with
    | ⟨0, _⟩ => show win3_4.index t (0 : Fin 2) * 1 + 1 * 0 = 0; omega
    | ⟨1, _⟩ => show win3_4.index t (1 : Fin 2) * 1 + 1 * q.val = q.val; omega
  have r0 : ∀ l : Fin 128, (iblk3 V c 0 t : S5000x128.Idx → EReal) (ix2 p l)
      = (V c (Pipeline.arrRef spec3 0) : S100000x128.Idx → EReal) (ix2 r l) := fun l => by
    show V c (Pipeline.arrRef spec3 0) (((cfg3.win 0).blk t).view.emb (ix2 p l)) = _
    rw [h0 l]
  have r1 : ∀ l k : Fin 128, (iblk3 V c 1 t : S128x128.Idx → EReal) (ix2 l k)
      = (V c (Pipeline.arrRef spec3 1) : S128x128.Idx → EReal) (ix2 l k) := fun l k => by
    show V c (Pipeline.arrRef spec3 1) (((cfg3.win 1).blk t).view.emb (ix2 l k)) = _
    rw [h1 l k]
  have r2 : ∀ k : Fin 128, (iblk3 V c 2 t : S1x128.Idx → EReal) (ix2 (0 : Fin 1) k)
      = (V c (Pipeline.arrRef spec3 2) : S1x128.Idx → EReal) (ix2 (0 : Fin 1) k) := fun k => by
    show V c (Pipeline.arrRef spec3 2) (((cfg3.win 2).blk t).view.emb (ix2 (0 : Fin 1) k)) = _
    rw [h2 k]
  have r3 : ∀ k : Fin 128, (iblk3 V c 3 t : S128x1.Idx → EReal) (ix2 k q)
      = (V c (Pipeline.arrRef spec3 3) : S128x1.Idx → EReal) (ix2 k q) := fun k => by
    show V c (Pipeline.arrRef spec3 3) (((cfg3.win 3).blk t).view.emb (ix2 k q)) = _
    rw [h3 k]
  have r4 : (iblk3 V c 4 t : S1x1.Idx → EReal) (ix2 (0 : Fin 1) q)
      = (V c (Pipeline.arrRef spec3 4) : S1x1.Idx → EReal) (ix2 (0 : Fin 1) q) := by
    show V c (Pipeline.arrRef spec3 4) (((cfg3.win 4).blk t).view.emb (ix2 (0 : Fin 1) q)) = _
    rw [h4]
  have r5 : ((cfg3.win 5).blk t).view.read (Elt Ideal)
        (head (V c (Pipeline.arrRef spec3 0)) (V c (Pipeline.arrRef spec3 1)) (V c (Pipeline.arrRef spec3 2))
          (V c (Pipeline.arrRef spec3 3)) (V c (Pipeline.arrRef spec3 4))) (ix2 p q)
      = head (V c (Pipeline.arrRef spec3 0)) (V c (Pipeline.arrRef spec3 1)) (V c (Pipeline.arrRef spec3 2))
          (V c (Pipeline.arrRef spec3 3)) (V c (Pipeline.arrRef spec3 4)) (ix2 r q) := by
    show head _ _ _ _ _ (((cfg3.win 5).blk t).view.emb (ix2 p q)) = _
    rw [h5]
  refine (pay_apply (iblk3 V c 0 t) (iblk3 V c 1 t) (iblk3 V c 2 t) (iblk3 V c 3 t) (iblk3 V c 4 t) p q).trans ?_
  rw [r5, r4]
  simp only [r0, r1, r2, r3]
  rfl

/-- An index of the result column is in point t's block iff each coordinate is in the block's range on its axis. -/
theorem mem_blk (t : Fin cfg3.N) (i : S100000x1.Idx) :
    i ∈ ((cfg3.win 5).blk t).view.set ↔ ∀ a : Fin 2, win3_5.index t a * S5000x1.size a ≤ (i a).val
      ∧ (i a).val < win3_5.index t a * S5000x1.size a + S5000x1.size a := by
  show i ∈ ((View.whole main_v37).slice (win3_5.rect t)).set ↔ _
  rw [View.set_slice_whole, Rect.mem_set_unit]
  exact Iff.rfl

/-- Every row of the result lies in the block of the point its row number divided by 5000 names. -/
theorem cover (i : S100000x1.Idx) :
    ∃ t : Fin cfg3.N, (cfg3.win 5).flush t = true ∧ i ∈ ((cfg3.win 5).blk t).view.set := by
  have hi0 : (i 0).val < 100000 := (i 0).isLt
  have hi1 : (i 1).val < 1 := (i 1).isLt
  let t : Fin cfg3.N := ⟨(i 0).val / 5000, by rw [show cfg3.N = 20 from N_3]; omega⟩
  obtain ⟨e00, e01, e10, e11, e20, e21, e30, e31, e40, e41, e50, e51⟩ := idx_facts t
  have et : t.val = (i 0).val / 5000 := rfl
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 1 ≤ (i 1).val ∧ (i 1).val < win3_5.index t (1 : Fin 2) * 1 + 1; omega

/-- THE RESULT COLUMN after the launch: the head's value of the arrays the launch found. -/
theorem final (c : Dev nD) :
    (dat3 V c).arrAt 5 cfg3.N
      = head (V c (Pipeline.arrRef spec3 0)) (V c (Pipeline.arrRef spec3 1)) (V c (Pipeline.arrRef spec3 2))
          (V c (Pipeline.arrRef spec3 3)) (V c (Pipeline.arrRef spec3 4)) :=
  (dat3 V c).arrAt_eq_of_cover 5 _ (fun t _ => flushed_eq V c t) cover

end Cert.KernelIdeal.HeadValue

end
-- ==== Proof.KernelValue.lean ====
/-
  The idealized kernel's result as one function of its arguments.

  Between the four launches the host computes, from the edge list, the source and destination node of every edge, the
  in-degree of every node (a sum of ones scattered to the destinations) and, twice, the sum over incoming edges of the
  source nodes' features (a gather of rows followed by a scatter-add). The launches are the node encoder, two
  neighbour-averaging layers and the prediction head, each one whole-array function of the arrays it finds. Walking
  the boundaries from the launch to the return — a host stretch leaves its operations' values, a launch leaves its
  result array at its whole-array function and everything else untouched — the result buffer ends at

      head (layer (agg h₁) h₁ deg …) …  with  h₁ = layer (agg h₀) h₀ deg …,  h₀ = enc x W b,

  reshaped to a vector.
-/
import proofs.«178376_j41558103556527_1_alg».proof.Proof.Gen.KernelIdeal.Frame
import proofs.«178376_j41558103556527_1_alg».proof.Proof.EncoderValue
import proofs.«178376_j41558103556527_1_alg».proof.Proof.SageValue1
import proofs.«178376_j41558103556527_1_alg».proof.Proof.SageValue2
import proofs.«178376_j41558103556527_1_alg».proof.Proof.HeadValue
import Idealize.ShloMosaic.Lib.StableHlo.Run
import Idealize.ShloMosaic.PureOps.Ideal.Laws

set_option maxRecDepth 16384

noncomputable section

namespace Cert.KernelIdeal.ProgramValue

open Idealize.ShloMosaic Idealize.ShloMosaic.TcCoe Idealize.SL.Sem Idealize.ShloMosaic.StableHlo
open Cert.KernelIdeal Cert.KernelIdeal.Gen

/-- An array of a given shape and element type at the ideal instance. -/
abbrev Arr (s : Shape) (e : EltTy) : Type := (⟨s, e⟩ : BufTy).Contents (Elt Ideal)

/-- The source node of every edge: the first row of the edge list. -/
def src (ei : Arr S2x1600000 .i32) : Arr S1600000 .i32 :=
  shapeCast S1600000 (extractStridedSlice S1x1600000 ![0, 0] ei slices_S2x1600000_S1x1600000_0_0) shapeCasts_S1x1600000_S1600000

/-- The destination node of every edge: the second row of the edge list. -/
def dst (ei : Arr S2x1600000 .i32) : Arr S1600000 .i32 :=
  shapeCast S1600000 (extractStridedSlice S1x1600000 ![1, 0] ei slices_S2x1600000_S1x1600000_1_0) shapeCasts_S1x1600000_S1600000

/-- The in-degree of every node as a column: ones scattered and summed at the destinations. -/
def degCol (ei : Arr S2x1600000 .i32) : Arr S100000x1 .f32 :=
  shapeCast S100000x1
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 (dst ei))
      (broadcastInDim S1600000 ![] bcast_S_S1600000 (constant (F := Ideal) S_ .f32 0x3F800000#32)))
    shapeCasts_S100000_S100000x1

/-- The sum, at every node, of the features of the source nodes of its incoming edges (a negative source index
    wrapped once, as array indexing does). -/
def agg (ei : Arr S2x1600000 .i32) (h : Arr S100000x128 .f32) : Arr S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dst ei))
    (Host.gather gather_S100000x128_S1600000x1_S1600000x128_1_0_n_n_0_1_1128 h
      (broadcastInDim S1600000x1 ![0] bcast_S1600000_S1600000x1_0
        (select (cmpi .slt (src ei) (broadcastInDim S1600000 ![] bcast_S_S1600000 (constantI S_ 32 0#32)))
          (addi (src ei) (broadcastInDim S1600000 ![] bcast_S_S1600000 (constantI S_ 32 100000#32)))
          (src ei))))

/-- The node encoder's output. -/
def h0 (x : Arr S100000x16 .f32) (wenc : Arr S16x128 .f32) (benc : Arr S128 .f32) : Arr S100000x128 .f32 :=
  EncoderValue.enc x wenc (shapeCast S1x128 benc shapeCasts_S128_S1x128)

/-- One neighbour-averaging layer on top of node features h. -/
def conv (ei : Arr S2x1600000 .i32) (h : Arr S100000x128 .f32) (wl wr : Arr S128x128 .f32) (b : Arr S128 .f32) :
    Arr S100000x128 .f32 :=
  SageValue1.layer (agg ei h) h (degCol ei) wl wr (shapeCast S1x128 b shapeCasts_S128_S1x128)

/-- The whole program: encoder, two layers, head, the column read as a vector. -/
def program (x : Arr S100000x16 .f32) (ei : Arr S2x1600000 .i32) (wenc : Arr S16x128 .f32) (benc : Arr S128 .f32)
    (w1l w1r : Arr S128x128 .f32) (b1 : Arr S128 .f32) (w2l w2r : Arr S128x128 .f32) (b2 : Arr S128 .f32)
    (wm1 : Arr S128x128 .f32) (bm1 : Arr S128 .f32) (wm2 : Arr S128x1 .f32) (bm2 : Arr S1 .f32) : Arr S100000 .f32 :=
  shapeCast S100000
    (HeadValue.head (conv ei (conv ei (h0 x wenc benc) w1l w1r b1) w2l w2r b2) wm1
      (shapeCast S1x128 bm1 shapeCasts_S128_S1x128) wm2 (shapeCast S1x1 bm2 shapeCasts_S1_S1x1))
    shapeCasts_S100000x1_S100000

/-- The two layers have one and the same whole-array function. -/
theorem layer2_eq : @SageValue2.layer = @SageValue1.layer := rfl

variable (m : (ℓ : Loc nD τ sig) → Buf (Elt Ideal) ℓ) (ρ : Dev nD → PrngReg) (c : Dev nD)

/-! ## After the first host stretch -/

theorem W1_arg0 : W1 m ρ c (Proc.devRef .tc main_arg0) = m ((c : Thread nD τ).loc main_arg0) := by
  show StableHlo.after hostOps0 (W0 m ρ c) (Proc.devRef .tc main_arg0) = _
  after_results <;> rfl
theorem W1_arg4 : W1 m ρ c (Proc.devRef .tc main_arg4) = m ((c : Thread nD τ).loc main_arg4) := by
  show StableHlo.after hostOps0 (W0 m ρ c) (Proc.devRef .tc main_arg4) = _
  after_results <;> rfl
theorem W1_arg6 : W1 m ρ c (Proc.devRef .tc main_arg6) = m ((c : Thread nD τ).loc main_arg6) := by
  show StableHlo.after hostOps0 (W0 m ρ c) (Proc.devRef .tc main_arg6) = _
  after_results <;> rfl
theorem W1_arg7 : W1 m ρ c (Proc.devRef .tc main_arg7) = m ((c : Thread nD τ).loc main_arg7) := by
  show StableHlo.after hostOps0 (W0 m ρ c) (Proc.devRef .tc main_arg7) = _
  after_results <;> rfl
theorem W1_arg9 : W1 m ρ c (Proc.devRef .tc main_arg9) = m ((c : Thread nD τ).loc main_arg9) := by
  show StableHlo.after hostOps0 (W0 m ρ c) (Proc.devRef .tc main_arg9) = _
  after_results <;> rfl
theorem W1_arg10 : W1 m ρ c (Proc.devRef .tc main_arg10) = m ((c : Thread nD τ).loc main_arg10) := by
  show StableHlo.after hostOps0 (W0 m ρ c) (Proc.devRef .tc main_arg10) = _
  after_results <;> rfl
theorem W1_arg12 : W1 m ρ c (Proc.devRef .tc main_arg12) = m ((c : Thread nD τ).loc main_arg12) := by
  show StableHlo.after hostOps0 (W0 m ρ c) (Proc.devRef .tc main_arg12) = _
  after_results <;> rfl
theorem W1_arg14 : W1 m ρ c (Proc.devRef .tc main_arg14) = m ((c : Thread nD τ).loc main_arg14) := by
  show StableHlo.after hostOps0 (W0 m ρ c) (Proc.devRef .tc main_arg14) = _
  after_results <;> rfl
theorem W1_v1 : W1 m ρ c (Proc.devRef .tc main_v1) = src (m ((c : Thread nD τ).loc main_arg1)) := by
  show StableHlo.after hostOps0 (W0 m ρ c) (Proc.devRef .tc main_v1) = _
  after_results <;> rfl
theorem W1_v3 : W1 m ρ c (Proc.devRef .tc main_v3) = dst (m ((c : Thread nD τ).loc main_arg1)) := by
  show StableHlo.after hostOps0 (W0 m ρ c) (Proc.devRef .tc main_v3) = _
  after_results <;> rfl
theorem W1_v4 : W1 m ρ c (Proc.devRef .tc main_v4) = shapeCast S1x128 (m ((c : Thread nD τ).loc main_arg5)) shapeCasts_S128_S1x128 := by
  show StableHlo.after hostOps0 (W0 m ρ c) (Proc.devRef .tc main_v4) = _
  after_results <;> rfl
theorem W1_v5 : W1 m ρ c (Proc.devRef .tc main_v5) = shapeCast S1x128 (m ((c : Thread nD τ).loc main_arg8)) shapeCasts_S128_S1x128 := by
  show StableHlo.after hostOps0 (W0 m ρ c) (Proc.devRef .tc main_v5) = _
  after_results <;> rfl
theorem W1_v6 : W1 m ρ c (Proc.devRef .tc main_v6) = shapeCast S1x128 (m ((c : Thread nD τ).loc main_arg11)) shapeCasts_S128_S1x128 := by
  show StableHlo.after hostOps0 (W0 m ρ c) (Proc.devRef .tc main_v6) = _
  after_results <;> rfl
theorem W1_v7 : W1 m ρ c (Proc.devRef .tc main_v7) = shapeCast S1x128 (m ((c : Thread nD τ).loc main_arg13)) shapeCasts_S128_S1x128 := by
  show StableHlo.after hostOps0 (W0 m ρ c) (Proc.devRef .tc main_v7) = _
  after_results <;> rfl
theorem W1_v8 : W1 m ρ c (Proc.devRef .tc main_v8) = shapeCast S1x1 (m ((c : Thread nD τ).loc main_arg15)) shapeCasts_S1_S1x1 := by
  show StableHlo.after hostOps0 (W0 m ρ c) (Proc.devRef .tc main_v8) = _
  after_results <;> rfl
theorem W1_v13 : W1 m ρ c (Proc.devRef .tc main_v13) = degCol (m ((c : Thread nD τ).loc main_arg1)) := by
  show StableHlo.after hostOps0 (W0 m ρ c) (Proc.devRef .tc main_v13) = _
  after_results <;> rfl

/-! ## Buffers no later stretch and no launch writes keep their contents -/

theorem k2_main_v1 : W2 m ρ c (Proc.devRef .tc main_v1) = W1 m ρ c (Proc.devRef .tc main_v1) := W2_of_ne m ρ c main_v1 (by decide)
theorem k3_main_v1 : W3 m ρ c (Proc.devRef .tc main_v1) = W1 m ρ c (Proc.devRef .tc main_v1) := by
  show StableHlo.after hostOps1 (W2 m ρ c) (Proc.devRef .tc main_v1) = _
  after_results
  exact k2_main_v1 m ρ c
theorem k4_main_v1 : W4 m ρ c (Proc.devRef .tc main_v1) = W1 m ρ c (Proc.devRef .tc main_v1) := (W4_of_ne m ρ c main_v1 (by decide)).trans (k3_main_v1 m ρ c)
theorem k5_main_v1 : W5 m ρ c (Proc.devRef .tc main_v1) = W1 m ρ c (Proc.devRef .tc main_v1) := by
  show StableHlo.after hostOps2 (W4 m ρ c) (Proc.devRef .tc main_v1) = _
  after_results
  exact k4_main_v1 m ρ c
theorem k2_main_v3 : W2 m ρ c (Proc.devRef .tc main_v3) = W1 m ρ c (Proc.devRef .tc main_v3) := W2_of_ne m ρ c main_v3 (by decide)
theorem k3_main_v3 : W3 m ρ c (Proc.devRef .tc main_v3) = W1 m ρ c (Proc.devRef .tc main_v3) := by
  show StableHlo.after hostOps1 (W2 m ρ c) (Proc.devRef .tc main_v3) = _
  after_results
  exact k2_main_v3 m ρ c
theorem k4_main_v3 : W4 m ρ c (Proc.devRef .tc main_v3) = W1 m ρ c (Proc.devRef .tc main_v3) := (W4_of_ne m ρ c main_v3 (by decide)).trans (k3_main_v3 m ρ c)
theorem k5_main_v3 : W5 m ρ c (Proc.devRef .tc main_v3) = W1 m ρ c (Proc.devRef .tc main_v3) := by
  show StableHlo.after hostOps2 (W4 m ρ c) (Proc.devRef .tc main_v3) = _
  after_results
  exact k4_main_v3 m ρ c
theorem k2_main_v5 : W2 m ρ c (Proc.devRef .tc main_v5) = W1 m ρ c (Proc.devRef .tc main_v5) := W2_of_ne m ρ c main_v5 (by decide)
theorem k3_main_v5 : W3 m ρ c (Proc.devRef .tc main_v5) = W1 m ρ c (Proc.devRef .tc main_v5) := by
  show StableHlo.after hostOps1 (W2 m ρ c) (Proc.devRef .tc main_v5) = _
  after_results
  exact k2_main_v5 m ρ c
theorem k2_main_v6 : W2 m ρ c (Proc.devRef .tc main_v6) = W1 m ρ c (Proc.devRef .tc main_v6) := W2_of_ne m ρ c main_v6 (by decide)
theorem k3_main_v6 : W3 m ρ c (Proc.devRef .tc main_v6) = W1 m ρ c (Proc.devRef .tc main_v6) := by
  show StableHlo.after hostOps1 (W2 m ρ c) (Proc.devRef .tc main_v6) = _
  after_results
  exact k2_main_v6 m ρ c
theorem k4_main_v6 : W4 m ρ c (Proc.devRef .tc main_v6) = W1 m ρ c (Proc.devRef .tc main_v6) := (W4_of_ne m ρ c main_v6 (by decide)).trans (k3_main_v6 m ρ c)
theorem k5_main_v6 : W5 m ρ c (Proc.devRef .tc main_v6) = W1 m ρ c (Proc.devRef .tc main_v6) := by
  show StableHlo.after hostOps2 (W4 m ρ c) (Proc.devRef .tc main_v6) = _
  after_results
  exact k4_main_v6 m ρ c
theorem k2_main_v7 : W2 m ρ c (Proc.devRef .tc main_v7) = W1 m ρ c (Proc.devRef .tc main_v7) := W2_of_ne m ρ c main_v7 (by decide)
theorem k3_main_v7 : W3 m ρ c (Proc.devRef .tc main_v7) = W1 m ρ c (Proc.devRef .tc main_v7) := by
  show StableHlo.after hostOps1 (W2 m ρ c) (Proc.devRef .tc main_v7) = _
  after_results
  exact k2_main_v7 m ρ c
theorem k4_main_v7 : W4 m ρ c (Proc.devRef .tc main_v7) = W1 m ρ c (Proc.devRef .tc main_v7) := (W4_of_ne m ρ c main_v7 (by decide)).trans (k3_main_v7 m ρ c)
theorem k5_main_v7 : W5 m ρ c (Proc.devRef .tc main_v7) = W1 m ρ c (Proc.devRef .tc main_v7) := by
  show StableHlo.after hostOps2 (W4 m ρ c) (Proc.devRef .tc main_v7) = _
  after_results
  exact k4_main_v7 m ρ c
theorem k6_main_v7 : W6 m ρ c (Proc.devRef .tc main_v7) = W1 m ρ c (Proc.devRef .tc main_v7) := (W6_of_ne m ρ c main_v7 (by decide)).trans (k5_main_v7 m ρ c)
theorem k2_main_v8 : W2 m ρ c (Proc.devRef .tc main_v8) = W1 m ρ c (Proc.devRef .tc main_v8) := W2_of_ne m ρ c main_v8 (by decide)
theorem k3_main_v8 : W3 m ρ c (Proc.devRef .tc main_v8) = W1 m ρ c (Proc.devRef .tc main_v8) := by
  show StableHlo.after hostOps1 (W2 m ρ c) (Proc.devRef .tc main_v8) = _
  after_results
  exact k2_main_v8 m ρ c
theorem k4_main_v8 : W4 m ρ c (Proc.devRef .tc main_v8) = W1 m ρ c (Proc.devRef .tc main_v8) := (W4_of_ne m ρ c main_v8 (by decide)).trans (k3_main_v8 m ρ c)
theorem k5_main_v8 : W5 m ρ c (Proc.devRef .tc main_v8) = W1 m ρ c (Proc.devRef .tc main_v8) := by
  show StableHlo.after hostOps2 (W4 m ρ c) (Proc.devRef .tc main_v8) = _
  after_results
  exact k4_main_v8 m ρ c
theorem k6_main_v8 : W6 m ρ c (Proc.devRef .tc main_v8) = W1 m ρ c (Proc.devRef .tc main_v8) := (W6_of_ne m ρ c main_v8 (by decide)).trans (k5_main_v8 m ρ c)
theorem k2_main_v13 : W2 m ρ c (Proc.devRef .tc main_v13) = W1 m ρ c (Proc.devRef .tc main_v13) := W2_of_ne m ρ c main_v13 (by decide)
theorem k3_main_v13 : W3 m ρ c (Proc.devRef .tc main_v13) = W1 m ρ c (Proc.devRef .tc main_v13) := by
  show StableHlo.after hostOps1 (W2 m ρ c) (Proc.devRef .tc main_v13) = _
  after_results
  exact k2_main_v13 m ρ c
theorem k4_main_v13 : W4 m ρ c (Proc.devRef .tc main_v13) = W1 m ρ c (Proc.devRef .tc main_v13) :=
  (W4_arr m ρ c 2).trans (((dat1 (V3 m ρ) c).arrAt_in 2 rfl _).trans ((A_eq1 (V3 m ρ) c 2).trans (k3_main_v13 m ρ c)))
theorem k5_main_v13 : W5 m ρ c (Proc.devRef .tc main_v13) = W1 m ρ c (Proc.devRef .tc main_v13) := by
  show StableHlo.after hostOps2 (W4 m ρ c) (Proc.devRef .tc main_v13) = _
  after_results
  exact k4_main_v13 m ρ c
theorem k2_main_arg6 : W2 m ρ c (Proc.devRef .tc main_arg6) = W1 m ρ c (Proc.devRef .tc main_arg6) := W2_of_ne m ρ c main_arg6 (by decide)
theorem k3_main_arg6 : W3 m ρ c (Proc.devRef .tc main_arg6) = W1 m ρ c (Proc.devRef .tc main_arg6) := by
  show StableHlo.after hostOps1 (W2 m ρ c) (Proc.devRef .tc main_arg6) = _
  after_results
  exact k2_main_arg6 m ρ c
theorem k2_main_arg7 : W2 m ρ c (Proc.devRef .tc main_arg7) = W1 m ρ c (Proc.devRef .tc main_arg7) := W2_of_ne m ρ c main_arg7 (by decide)
theorem k3_main_arg7 : W3 m ρ c (Proc.devRef .tc main_arg7) = W1 m ρ c (Proc.devRef .tc main_arg7) := by
  show StableHlo.after hostOps1 (W2 m ρ c) (Proc.devRef .tc main_arg7) = _
  after_results
  exact k2_main_arg7 m ρ c
theorem k2_main_arg9 : W2 m ρ c (Proc.devRef .tc main_arg9) = W1 m ρ c (Proc.devRef .tc main_arg9) := W2_of_ne m ρ c main_arg9 (by decide)
theorem k3_main_arg9 : W3 m ρ c (Proc.devRef .tc main_arg9) = W1 m ρ c (Proc.devRef .tc main_arg9) := by
  show StableHlo.after hostOps1 (W2 m ρ c) (Proc.devRef .tc main_arg9) = _
  after_results
  exact k2_main_arg9 m ρ c
theorem k4_main_arg9 : W4 m ρ c (Proc.devRef .tc main_arg9) = W1 m ρ c (Proc.devRef .tc main_arg9) := (W4_of_ne m ρ c main_arg9 (by decide)).trans (k3_main_arg9 m ρ c)
theorem k5_main_arg9 : W5 m ρ c (Proc.devRef .tc main_arg9) = W1 m ρ c (Proc.devRef .tc main_arg9) := by
  show StableHlo.after hostOps2 (W4 m ρ c) (Proc.devRef .tc main_arg9) = _
  after_results
  exact k4_main_arg9 m ρ c
theorem k2_main_arg10 : W2 m ρ c (Proc.devRef .tc main_arg10) = W1 m ρ c (Proc.devRef .tc main_arg10) := W2_of_ne m ρ c main_arg10 (by decide)
theorem k3_main_arg10 : W3 m ρ c (Proc.devRef .tc main_arg10) = W1 m ρ c (Proc.devRef .tc main_arg10) := by
  show StableHlo.after hostOps1 (W2 m ρ c) (Proc.devRef .tc main_arg10) = _
  after_results
  exact k2_main_arg10 m ρ c
theorem k4_main_arg10 : W4 m ρ c (Proc.devRef .tc main_arg10) = W1 m ρ c (Proc.devRef .tc main_arg10) := (W4_of_ne m ρ c main_arg10 (by decide)).trans (k3_main_arg10 m ρ c)
theorem k5_main_arg10 : W5 m ρ c (Proc.devRef .tc main_arg10) = W1 m ρ c (Proc.devRef .tc main_arg10) := by
  show StableHlo.after hostOps2 (W4 m ρ c) (Proc.devRef .tc main_arg10) = _
  after_results
  exact k4_main_arg10 m ρ c
theorem k2_main_arg12 : W2 m ρ c (Proc.devRef .tc main_arg12) = W1 m ρ c (Proc.devRef .tc main_arg12) := W2_of_ne m ρ c main_arg12 (by decide)
theorem k3_main_arg12 : W3 m ρ c (Proc.devRef .tc main_arg12) = W1 m ρ c (Proc.devRef .tc main_arg12) := by
  show StableHlo.after hostOps1 (W2 m ρ c) (Proc.devRef .tc main_arg12) = _
  after_results
  exact k2_main_arg12 m ρ c
theorem k4_main_arg12 : W4 m ρ c (Proc.devRef .tc main_arg12) = W1 m ρ c (Proc.devRef .tc main_arg12) := (W4_of_ne m ρ c main_arg12 (by decide)).trans (k3_main_arg12 m ρ c)
theorem k5_main_arg12 : W5 m ρ c (Proc.devRef .tc main_arg12) = W1 m ρ c (Proc.devRef .tc main_arg12) := by
  show StableHlo.after hostOps2 (W4 m ρ c) (Proc.devRef .tc main_arg12) = _
  after_results
  exact k4_main_arg12 m ρ c
theorem k6_main_arg12 : W6 m ρ c (Proc.devRef .tc main_arg12) = W1 m ρ c (Proc.devRef .tc main_arg12) := (W6_of_ne m ρ c main_arg12 (by decide)).trans (k5_main_arg12 m ρ c)
theorem k2_main_arg14 : W2 m ρ c (Proc.devRef .tc main_arg14) = W1 m ρ c (Proc.devRef .tc main_arg14) := W2_of_ne m ρ c main_arg14 (by decide)
theorem k3_main_arg14 : W3 m ρ c (Proc.devRef .tc main_arg14) = W1 m ρ c (Proc.devRef .tc main_arg14) := by
  show StableHlo.after hostOps1 (W2 m ρ c) (Proc.devRef .tc main_arg14) = _
  after_results
  exact k2_main_arg14 m ρ c
theorem k4_main_arg14 : W4 m ρ c (Proc.devRef .tc main_arg14) = W1 m ρ c (Proc.devRef .tc main_arg14) := (W4_of_ne m ρ c main_arg14 (by decide)).trans (k3_main_arg14 m ρ c)
theorem k5_main_arg14 : W5 m ρ c (Proc.devRef .tc main_arg14) = W1 m ρ c (Proc.devRef .tc main_arg14) := by
  show StableHlo.after hostOps2 (W4 m ρ c) (Proc.devRef .tc main_arg14) = _
  after_results
  exact k4_main_arg14 m ρ c
theorem k6_main_arg14 : W6 m ρ c (Proc.devRef .tc main_arg14) = W1 m ρ c (Proc.devRef .tc main_arg14) := (W6_of_ne m ρ c main_arg14 (by decide)).trans (k5_main_arg14 m ρ c)

/-! ## The launches' results and the sums between them -/

/-- The node features after the encoder. -/
abbrev H0 : Arr S100000x128 .f32 :=
  h0 (m ((c : Thread nD τ).loc main_arg0)) (m ((c : Thread nD τ).loc main_arg4)) (m ((c : Thread nD τ).loc main_arg5))
/-- The node features after the first layer. -/
abbrev H1 : Arr S100000x128 .f32 :=
  conv (m ((c : Thread nD τ).loc main_arg1)) (H0 m c) (m ((c : Thread nD τ).loc main_arg6)) (m ((c : Thread nD τ).loc main_arg7))
    (m ((c : Thread nD τ).loc main_arg8))
/-- The node features after the second layer. -/
abbrev H2 : Arr S100000x128 .f32 :=
  conv (m ((c : Thread nD τ).loc main_arg1)) (H1 m c) (m ((c : Thread nD τ).loc main_arg9)) (m ((c : Thread nD τ).loc main_arg10))
    (m ((c : Thread nD τ).loc main_arg11))

theorem W2_v14 : W2 m ρ c (Proc.devRef .tc main_v14) = H0 m c := by
  refine (W2_arr m ρ c 3).trans ((EncoderValue.final (V1 m ρ) c).trans ?_)
  show EncoderValue.enc (W1 m ρ c (Proc.devRef .tc main_arg0)) (W1 m ρ c (Proc.devRef .tc main_arg4)) (W1 m ρ c (Proc.devRef .tc main_v4)) = _
  rw [W1_arg0, W1_arg4, W1_v4]
  rfl

theorem W3_v14 : W3 m ρ c (Proc.devRef .tc main_v14) = H0 m c := by
  show StableHlo.after hostOps1 (W2 m ρ c) (Proc.devRef .tc main_v14) = _
  after_results
  exact W2_v14 m ρ c

theorem W3_v24 : W3 m ρ c (Proc.devRef .tc main_v24) = agg (m ((c : Thread nD τ).loc main_arg1)) (H0 m c) := by
  show StableHlo.after hostOps1 (W2 m ρ c) (Proc.devRef .tc main_v24) = _
  after_results
  rw [k2_main_v3, k2_main_v1, W1_v3, W1_v1, W2_v14]
  rfl

theorem W4_v25 : W4 m ρ c (Proc.devRef .tc main_v25) = H1 m c := by
  refine (W4_arr m ρ c 6).trans ((SageValue1.final (V3 m ρ) c).trans ?_)
  show SageValue1.layer (W3 m ρ c (Proc.devRef .tc main_v24)) (W3 m ρ c (Proc.devRef .tc main_v14)) (W3 m ρ c (Proc.devRef .tc main_v13))
    (W3 m ρ c (Proc.devRef .tc main_arg6)) (W3 m ρ c (Proc.devRef .tc main_arg7)) (W3 m ρ c (Proc.devRef .tc main_v5)) = _
  rw [W3_v24, W3_v14, k3_main_v13, k3_main_arg6, k3_main_arg7, k3_main_v5, W1_v13, W1_arg6, W1_arg7, W1_v5]
  rfl

theorem W5_v25 : W5 m ρ c (Proc.devRef .tc main_v25) = H1 m c := by
  show StableHlo.after hostOps2 (W4 m ρ c) (Proc.devRef .tc main_v25) = _
  after_results
  exact W4_v25 m ρ c

theorem W5_v35 : W5 m ρ c (Proc.devRef .tc main_v35) = agg (m ((c : Thread nD τ).loc main_arg1)) (H1 m c) := by
  show StableHlo.after hostOps2 (W4 m ρ c) (Proc.devRef .tc main_v35) = _
  after_results
  rw [k4_main_v3, k4_main_v1, W1_v3, W1_v1, W4_v25]
  rfl

theorem W6_v36 : W6 m ρ c (Proc.devRef .tc main_v36) = H2 m c := by
  refine (W6_arr m ρ c 6).trans ((SageValue2.final (V5 m ρ) c).trans ?_)
  rw [layer2_eq]
  show SageValue1.layer (W5 m ρ c (Proc.devRef .tc main_v35)) (W5 m ρ c (Proc.devRef .tc main_v25)) (W5 m ρ c (Proc.devRef .tc main_v13))
    (W5 m ρ c (Proc.devRef .tc main_arg9)) (W5 m ρ c (Proc.devRef .tc main_arg10)) (W5 m ρ c (Proc.devRef .tc main_v6)) = _
  rw [W5_v35, W5_v25, k5_main_v13, k5_main_arg9, k5_main_arg10, k5_main_v6, W1_v13, W1_arg9, W1_arg10, W1_v6]
  rfl

theorem W7_v37 : W7 m ρ c (Proc.devRef .tc main_v37)
    = HeadValue.head (H2 m c) (m ((c : Thread nD τ).loc main_arg12))
        (shapeCast S1x128 (m ((c : Thread nD τ).loc main_arg13)) shapeCasts_S128_S1x128) (m ((c : Thread nD τ).loc main_arg14))
        (shapeCast S1x1 (m ((c : Thread nD τ).loc main_arg15)) shapeCasts_S1_S1x1) := by
  refine (W7_arr m ρ c 5).trans ((HeadValue.final (V6 m ρ) c).trans ?_)
  show HeadValue.head (W6 m ρ c (Proc.devRef .tc main_v36)) (W6 m ρ c (Proc.devRef .tc main_arg12)) (W6 m ρ c (Proc.devRef .tc main_v7))
    (W6 m ρ c (Proc.devRef .tc main_arg14)) (W6 m ρ c (Proc.devRef .tc main_v8)) = _
  rw [W6_v36, k6_main_arg12, k6_main_v7, k6_main_arg14, k6_main_v8, W1_arg12, W1_v7, W1_arg14, W1_v8]

/-- THE RESULT BUFFER at the last boundary: the program's function of the argument arrays as launched. -/
theorem result_value : W8 m ρ c (Proc.devRef .tc main_v38)
    = program (m ((c : Thread nD τ).loc main_arg0)) (m ((c : Thread nD τ).loc main_arg1)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13))
        (m ((c : Thread nD τ).loc main_arg14)) (m ((c : Thread nD τ).loc main_arg15)) := by
  show StableHlo.after hostOps4 (W7 m ρ c) (Proc.devRef .tc main_v38) = _
  after_results
  rw [W7_v37]
  rfl

end Cert.KernelIdeal.ProgramValue

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«178376_j41558103556527_1_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibHostAffine.lean ====
/-
  Two host-side shapes read at an entry, at the ideal instance.

  (1) A plain `dot_general` of an M×K array with a K×N matrix, plus a bias VECTOR of length N broadcast first to one
  row and then over the M rows, has at row `r` and column `j` the value `(∑ k, x (r, k) · W (k, j)) + b j`.
  (2) The maximum of an array with the broadcast of the scalar constant whose word is all zeros is, entry by entry, the
  maximum with the real number zero (the positive part).
-/
import proofs.«178376_j41558103556527_1_alg».proof.Proof.LibDotGeneralNN
import Idealize.ShloMosaic.Lib.Pipeline.Value

noncomputable section

open scoped BigOperators

namespace Cert.LibHostAffine

open Idealize.ShloMosaic Idealize.ShloMosaic.ValueIdx

variable {M K N : Nat} {φ₁ φ₂ : FTy} {α : Type}

/-- A vector broadcast to one row and then over `M` rows reads, at `(r, j)`, its entry `j`. -/
theorem bias_apply (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![1, N]⟩ (![1] : Fin 1 → Fin 2) h1 b) (ix2 r j)
      = b (ix1 j) := by
  rw [broadcastInDim_apply (![0, 1] : Fin 2 → Fin 2) h2 _ (ix2 r j) (ix2 (0 : Fin 1) j) (fun a => by
    match a with
    | ⟨0, _⟩ => rfl
    | ⟨1, _⟩ =>
      show j.val = if N = 1 then 0 else j.val
      split
      · have := j.isLt; omega
      · rfl)]
  exact broadcastInDim_apply (![1] : Fin 1 → Fin 2) h1 b (ix2 (0 : Fin 1) j) (ix1 j) (fun a => by
    match a with
    | ⟨0, _⟩ =>
      show j.val = if N = 1 then 0 else j.val
      split
      · have := j.isLt; omega
      · rfl)

/-- The host product plus the broadcast bias vector at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    addf (Host.dotGeneral d prec x W)
        (broadcastInDim ⟨2, ![M, N]⟩ (![0, 1] : Fin 2 → Fin 2) h2 (broadcastInDim ⟨2, ![1, N]⟩ (![1] : Fin 1 → Fin 2) h1 b)) (ix2 r j)
      = (∑ k : Fin K, x (ix2 r k) * W (ix2 k j)) + b (ix1 j) := by
  rw [addf_apply, bias_apply b h1 h2 r j]
  simp only [Host.dotGeneral]
  rw [Cert.LibDotGeneralNN.dotGeneral_apply d hlc hrc hln hrn hlb hrb]

/-- The maximum with a broadcast zero constant is the positive part. -/
theorem relu_apply {s : Shape} (x : FVec Ideal s .f32) (h : (⟨0, ![]⟩ : Shape).BroadcastsInDim s (![] : Fin 0 → Fin s.rank))
    (i : s.Idx) :
    maximumf x (broadcastInDim s (![] : Fin 0 → Fin s.rank) h (constant (F := Ideal) ⟨0, ![]⟩ .f32 0x00000000#32)) i
      = max (x i) 0 := by
  show max (x i) (Ideal.ofBits .f32 0x00000000#32) = max (x i) 0
  rw [Ideal.ofBits_zero_f32]

end Cert.LibHostAffine

end
-- ==== Proof.LibGraphConv.lean ====
/-
  One graph-convolution layer read at an entry, at the ideal instance.

  A layer takes node features x (M×K), summed neighbour features a (M×K), two weight matrices wr and wl (K×N) and a
  bias vector b (length N) to the M×N array whose entry (r, j) is

      (∑ k, x (r, k) · wr (k, j)  +  ∑ k, a (r, k) · wl (k, j))  +  b j,

  optionally followed by the positive part max(·, 0). Two spellings of it are read at an entry, for any extents and
  any plain dimension-number record (left operand contracted on its second axis, right on its first, no batch axis):

  * the one a tile computes: two matrix products into zero accumulators, added; a bias row made by reshaping the
    vector to one row and repeating it over the rows, added; and a maximum with a splat of the zero word;
  * the one the host computes: two dot_generals, added; the bias broadcast first to one row and then over the rows,
    added; and a maximum with the broadcast of the scalar zero constant.

  Both are the same two sums in the same grouping, so they are equal on all extended reals, infinities included:
  no algebraic law is used beyond reading each operation at an index.
-/
import proofs.«178376_j41558103556527_1_alg».proof.Proof.LibMatmulNN
import proofs.«178376_j41558103556527_1_alg».proof.Proof.LibHostAffine
import Idealize.ShloMosaic.Lib.ValueLayout

noncomputable section

open scoped BigOperators

namespace Cert.LibGraphConv

open Idealize.ShloMosaic Idealize.ShloMosaic.ValueIdx

variable {M K N : Nat}

/-- The layer's entry at row `r` and column `j`, before the positive part. -/
def entry (x a : (⟨2, ![M, K]⟩ : Shape).Idx → EReal) (wr wl : (⟨2, ![K, N]⟩ : Shape).Idx → EReal)
    (b : (⟨1, ![N]⟩ : Shape).Idx → EReal) (r : Fin M) (j : Fin N) : EReal :=
  ((∑ k : Fin K, x (ix2 r k) * wr (ix2 k j)) + ∑ k : Fin K, a (ix2 r k) * wl (ix2 k j)) + b (ix1 j)

/-- The layer as one whole array. -/
def layer (x a : (⟨2, ![M, K]⟩ : Shape).Idx → EReal) (wr wl : (⟨2, ![K, N]⟩ : Shape).Idx → EReal)
    (b : (⟨1, ![N]⟩ : Shape).Idx → EReal) : (⟨2, ![M, N]⟩ : Shape).Idx → EReal :=
  fun i => entry x a wr wl b (i 0) (i 1)

/-- The layer followed by the positive part, as one whole array. -/
def layerPos (x a : (⟨2, ![M, K]⟩ : Shape).Idx → EReal) (wr wl : (⟨2, ![K, N]⟩ : Shape).Idx → EReal)
    (b : (⟨1, ![N]⟩ : Shape).Idx → EReal) : (⟨2, ![M, N]⟩ : Shape).Idx → EReal :=
  fun i => max (entry x a wr wl b (i 0) (i 1)) 0

theorem layer_ix2 (x a : (⟨2, ![M, K]⟩ : Shape).Idx → EReal) (wr wl : (⟨2, ![K, N]⟩ : Shape).Idx → EReal)
    (b : (⟨1, ![N]⟩ : Shape).Idx → EReal) (r : Fin M) (j : Fin N) :
    layer x a wr wl b (ix2 r j) = entry x a wr wl b r j := rfl

theorem layerPos_ix2 (x a : (⟨2, ![M, K]⟩ : Shape).Idx → EReal) (wr wl : (⟨2, ![K, N]⟩ : Shape).Idx → EReal)
    (b : (⟨1, ![N]⟩ : Shape).Idx → EReal) (r : Fin M) (j : Fin N) :
    layerPos x a wr wl b (ix2 r j) = max (entry x a wr wl b r j) 0 := rfl

section Tile
variable {φ₁ φ₂ φ₃ φ₄ : FTy}

/-- What a tile computes, read at `(r, j)`: the two products into zero accumulators plus the bias row. -/
theorem tile_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (a : FVec Ideal ⟨2, ![M, K]⟩ φ₂)
    (wr : FVec Ideal ⟨2, ![K, N]⟩ φ₃) (wl : FVec Ideal ⟨2, ![K, N]⟩ φ₄) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (r : Fin M) (j : Fin N) :
    addf (addf (matmul d prec x wr (constant (F := Ideal) ⟨2, ![M, N]⟩ .f32 0x00000000#32))
               (matmul d prec a wl (constant (F := Ideal) ⟨2, ![M, N]⟩ .f32 0x00000000#32)))
         (broadcastTo ⟨2, ![M, N]⟩ (shapeCast ⟨2, ![1, N]⟩ b hc) hb) (ix2 r j)
      = entry x a wr wl b r j := by
  rw [addf_apply, addf_apply,
    Cert.LibMatmulNN.matmul_zero_apply' d hlc hrc hln hrn hlb hrb prec x wr r j,
    Cert.LibMatmulNN.matmul_zero_apply' d hlc hrc hln hrn hlb hrb prec a wl r j,
    broadcastTo_1b_ab_apply _ hb r j, shapeCast_a_1a_apply b hc]
  rfl

/-- The same followed by the maximum with a splat of the zero word: the positive part. -/
theorem tile_pos_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (a : FVec Ideal ⟨2, ![M, K]⟩ φ₂)
    (wr : FVec Ideal ⟨2, ![K, N]⟩ φ₃) (wl : FVec Ideal ⟨2, ![K, N]⟩ φ₄) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (r : Fin M) (j : Fin N) :
    maximumf
        (addf (addf (matmul d prec x wr (constant (F := Ideal) ⟨2, ![M, N]⟩ .f32 0x00000000#32))
                    (matmul d prec a wl (constant (F := Ideal) ⟨2, ![M, N]⟩ .f32 0x00000000#32)))
              (broadcastTo ⟨2, ![M, N]⟩ (shapeCast ⟨2, ![1, N]⟩ b hc) hb))
        (broadcast ⟨2, ![M, N]⟩ (Scalar.ofBits (F := Ideal) .f32 0x00000000#32)) (ix2 r j)
      = max (entry x a wr wl b r j) 0 := by
  rw [maximumf_apply, broadcast_apply, tile_apply d hlc hrc hln hrn hlb hrb prec x a wr wl b hc hb r j]
  show max _ (Ideal.ofBits .f32 0x00000000#32) = max _ 0
  rw [Ideal.ofBits_zero_f32]

end Tile

section Host
variable {φ₁ φ₂ φ₃ φ₄ : FTy}

/-- What the host computes, read at `(r, j)`: the two dot_generals plus the bias broadcast over the rows. -/
theorem host_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (a : FVec Ideal ⟨2, ![M, K]⟩ φ₂)
    (wr : FVec Ideal ⟨2, ![K, N]⟩ φ₃) (wl : FVec Ideal ⟨2, ![K, N]⟩ φ₄) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (r : Fin M) (j : Fin N) :
    addf (addf (Host.dotGeneral d prec x wr) (Host.dotGeneral d prec a wl))
         (broadcastInDim ⟨2, ![M, N]⟩ (![0, 1] : Fin 2 → Fin 2) h2 (broadcastInDim ⟨2, ![1, N]⟩ (![1] : Fin 1 → Fin 2) h1 b)) (ix2 r j)
      = entry x a wr wl b r j := by
  rw [addf_apply, addf_apply, Cert.LibHostAffine.bias_apply b h1 h2 r j]
  simp only [Host.dotGeneral]
  rw [Cert.LibDotGeneralNN.dotGeneral_apply d hlc hrc hln hrn hlb hrb, Cert.LibDotGeneralNN.dotGeneral_apply d hlc hrc hln hrn hlb hrb]
  rfl

/-- The host's layer without the positive part, as a whole array. -/
theorem host_eq_layer (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (a : FVec Ideal ⟨2, ![M, K]⟩ φ₂)
    (wr : FVec Ideal ⟨2, ![K, N]⟩ φ₃) (wl : FVec Ideal ⟨2, ![K, N]⟩ φ₄) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf (addf (Host.dotGeneral d prec x wr) (Host.dotGeneral d prec a wl))
         (broadcastInDim ⟨2, ![M, N]⟩ (![0, 1] : Fin 2 → Fin 2) h2 (broadcastInDim ⟨2, ![1, N]⟩ (![1] : Fin 1 → Fin 2) h1 b))
      = layer x a wr wl b := by
  funext i
  obtain ⟨r, j, rfl⟩ : ∃ (r : Fin M) (j : Fin N), i = ix2 r j := ⟨i 0, i 1, eq_ix2 i⟩
  exact host_apply d hlc hrc hln hrn hlb hrb prec x a wr wl b h1 h2 r j

/-- The host's layer followed by the maximum with the broadcast zero constant, as a whole array. -/
theorem host_eq_layerPos (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (a : FVec Ideal ⟨2, ![M, K]⟩ φ₂)
    (wr : FVec Ideal ⟨2, ![K, N]⟩ φ₃) (wl : FVec Ideal ⟨2, ![K, N]⟩ φ₄) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf
        (addf (addf (Host.dotGeneral d prec x wr) (Host.dotGeneral d prec a wl))
              (broadcastInDim ⟨2, ![M, N]⟩ (![0, 1] : Fin 2 → Fin 2) h2 (broadcastInDim ⟨2, ![1, N]⟩ (![1] : Fin 1 → Fin 2) h1 b)))
        (broadcastInDim ⟨2, ![M, N]⟩ (![] : Fin 0 → Fin 2) h0 (constant (F := Ideal) ⟨0, ![]⟩ .f32 0x00000000#32))
      = layerPos x a wr wl b := by
  funext i
  rw [Cert.LibHostAffine.relu_apply _ h0 i]
  obtain ⟨r, j, rfl⟩ : ∃ (r : Fin M) (j : Fin N), i = ix2 r j := ⟨i 0, i 1, eq_ix2 i⟩
  rw [host_apply d hlc hrc hln hrn hlb hrb prec x a wr wl b h1 h2 r j]
  rfl

end Host

end Cert.LibGraphConv

end
-- ==== Proof.LibRowScalar.lean ====
/-
  Three small facts at the ideal instance, for any extents.

  * A vector of length a made a column (a × 1) and then repeated along the rows of an a × b array reads, at (r, k), the
    vector's entry r — the way a per-row scalar (a degree, a norm) is spread over a row on the host.
  * The 32-bit word 0x3F800000 is the number one.
  * The logistic function of a vector, read at an index, is the logistic function of the entry, which on the extended
    reals is 1 / (1 + exp (−x)) by definition.
-/
import Idealize.ShloMosaic.Lib.ValueIdx
import Idealize.ShloMosaic.Lib.Pipeline.Value
import Idealize.ShloMosaic.PureOps.Ideal.Laws

noncomputable section

namespace Cert.LibRowScalar

open Idealize.ShloMosaic Idealize.ShloMosaic.ValueIdx

/-- The word of the number one. -/
theorem one_word : Ideal.ofBits .f32 0x3F800000#32 = 1 := by
  simp [Ideal.ofBits, Ideal.ieee, -EReal.coe_mul]; norm_num

/-- A vector made a column and then repeated along the rows reads, at (r, k), its entry r. -/
theorem col_apply {a b : Nat} {α : Type} (v : (⟨1, ![a]⟩ : Shape).Idx → α)
    (g1 : (⟨1, ![a]⟩ : Shape).BroadcastsInDim ⟨2, ![a, 1]⟩ (![0] : Fin 1 → Fin 2))
    (g2 : (⟨2, ![a, 1]⟩ : Shape).BroadcastsInDim ⟨2, ![a, b]⟩ (![0, 1] : Fin 2 → Fin 2)) (r : Fin a) (k : Fin b) :
    broadcastInDim ⟨2, ![a, b]⟩ (![0, 1] : Fin 2 → Fin 2) g2 (broadcastInDim ⟨2, ![a, 1]⟩ (![0] : Fin 1 → Fin 2) g1 v) (ix2 r k)
      = v (ix1 r) := by
  rw [broadcastInDim_apply (![0, 1] : Fin 2 → Fin 2) g2 _ (ix2 r k) (ix2 r (0 : Fin 1)) (fun ax => by
    match ax with
    | ⟨0, _⟩ =>
      show r.val = if a = 1 then 0 else r.val
      split
      · have := r.isLt; omega
      · rfl
    | ⟨1, _⟩ => rfl)]
  exact broadcastInDim_apply (![0] : Fin 1 → Fin 2) g1 v (ix2 r (0 : Fin 1)) (ix1 r) (fun ax => by
    match ax with
    | ⟨0, _⟩ =>
      show r.val = if a = 1 then 0 else r.val
      split
      · have := r.isLt; omega
      · rfl)

/-- The logistic function of a vector, read at an index. -/
theorem logistic_apply {s : Shape} {φ : FTy} (x : FVec Ideal s φ) (i : s.Idx) : logistic x i = Ideal.logistic (x i) := rfl

/-- The logistic function on the extended reals is 1 / (1 + exp (−x)). -/
theorem logistic_eq (x : EReal) : Ideal.logistic x = Ideal.div 1 (1 + Ideal.exp (-x)) := rfl

end Cert.LibRowScalar

end
-- ==== Proof.HostForms.lean ====
/-
  The launches' whole-array functions in the host's spelling.

  Each of the three kinds of launch computes what a few host operations compute on whole arrays:

  * the encoder: a matrix product plus a bias vector repeated over the rows;
  * a neighbour-averaging layer: the summed neighbour features divided, row by row, by max(deg, 1), times one matrix,
    plus the node features times another, plus the bias, and the positive part — the degree reaching the layer as a
    column on one side and as a vector repeated along the rows on the other;
  * the prediction head: a product plus a bias, the positive part, a second product plus a bias, and the logistic
    function — written 1 / (1 + exp (−x)) on the host, which is what the logistic function is on the extended reals.

  Every equality holds entry by entry with no algebra beyond reading each operation at an index: both sides are the
  same sums in the same grouping, so they agree on all extended reals, infinities included.
-/
import proofs.«178376_j41558103556527_1_alg».proof.Proof.EncoderValue
import proofs.«178376_j41558103556527_1_alg».proof.Proof.SageValue1
import proofs.«178376_j41558103556527_1_alg».proof.Proof.HeadValue
import proofs.«178376_j41558103556527_1_alg».proof.Proof.LibHostAffine
import proofs.«178376_j41558103556527_1_alg».proof.Proof.LibGraphConv
import proofs.«178376_j41558103556527_1_alg».proof.Proof.LibColumnForms
import proofs.«178376_j41558103556527_1_alg».proof.Proof.LibRowScalar
import Idealize.ShloMosaic.Lib.ValueLayout
import Idealize.ShloMosaic.Lib.Pipeline.Value
import Idealize.ShloMosaic.PureOps.Ideal.Laws

set_option maxRecDepth 16384

noncomputable section

open scoped BigOperators

namespace Cert.HostForms

open Idealize.ShloMosaic Idealize.ShloMosaic.ValueIdx
open Cert.KernelIdeal Cert.LibRowScalar

/-- The encoder is the host's product plus the bias vector repeated over the rows. -/
theorem enc_host (d : DotDims S100000x16 S16x128 S100000x128)
    (hlc : d.lhsContracting = [1]) (hrc : d.rhsContracting = [0]) (hln : d.lhsNonContracting = [0])
    (hrn : d.rhsNonContracting = [1]) (hlb : d.lhsBatch = []) (hrb : d.rhsBatch = [])
    (x : FVec Ideal S100000x16 .f32) (w : FVec Ideal S16x128 .f32) (b : FVec Ideal S128 .f32)
    (hc : S128.ShapeCasts S1x128) (h1 : S128.BroadcastsInDim S1x128 (![1] : Fin 1 → Fin 2))
    (h2 : S1x128.BroadcastsInDim S100000x128 (![0, 1] : Fin 2 → Fin 2)) :
    EncoderValue.enc x w (shapeCast S1x128 b hc)
      = addf (Host.dotGeneral d none x w)
          (broadcastInDim S100000x128 (![0, 1] : Fin 2 → Fin 2) h2 (broadcastInDim S1x128 (![1] : Fin 1 → Fin 2) h1 b)) := by
  funext i
  obtain ⟨r, j, rfl⟩ : ∃ (r : Fin 100000) (j : Fin 128), i = ix2 r j := ⟨i 0, i 1, eq_ix2 i⟩
  rw [Cert.LibHostAffine.affine_apply d hlc hrc hln hrn hlb hrb none x w b h1 h2 r j]
  show (∑ k : Fin 16, x (ix2 r k) * w (ix2 k j)) + shapeCast S1x128 b hc (ix2 (0 : Fin 1) j) = _
  rw [shapeCast_a_1a_apply b hc]

/-- A layer is the host's: the quotient by the clamped degree repeated along the rows, two products, the bias, the
    positive part. -/
theorem layer_host (d : DotDims S100000x128 S128x128 S100000x128)
    (hlc : d.lhsContracting = [1]) (hrc : d.rhsContracting = [0]) (hln : d.lhsNonContracting = [0])
    (hrn : d.rhsNonContracting = [1]) (hlb : d.lhsBatch = []) (hrb : d.rhsBatch = [])
    (a h : FVec Ideal S100000x128 .f32) (deg : FVec Ideal S100000 .f32) (wl wr : FVec Ideal S128x128 .f32)
    (b : FVec Ideal S128 .f32) (hcd : S100000.ShapeCasts S100000x1) (hcb : S128.ShapeCasts S1x128)
    (g0 : S_.BroadcastsInDim S100000 (![] : Fin 0 → Fin 1))
    (g1 : S100000.BroadcastsInDim S100000x1 (![0] : Fin 1 → Fin 2))
    (g2 : S100000x1.BroadcastsInDim S100000x128 (![0, 1] : Fin 2 → Fin 2))
    (h1 : S128.BroadcastsInDim S1x128 (![1] : Fin 1 → Fin 2))
    (h2 : S1x128.BroadcastsInDim S100000x128 (![0, 1] : Fin 2 → Fin 2))
    (hz : S_.BroadcastsInDim S100000x128 (![] : Fin 0 → Fin 2)) :
    SageValue1.layer a h (shapeCast S100000x1 deg hcd) wl wr (shapeCast S1x128 b hcb)
      = maximumf
          (addf (addf
              (Host.dotGeneral d none
                (Host.divf a (broadcastInDim S100000x128 (![0, 1] : Fin 2 → Fin 2) g2
                  (broadcastInDim S100000x1 (![0] : Fin 1 → Fin 2) g1
                    (maximumf deg (broadcastInDim S100000 (![] : Fin 0 → Fin 1) g0 (constant (F := Ideal) S_ .f32 0x3F800000#32))))))
                wl)
              (Host.dotGeneral d none h wr))
            (broadcastInDim S100000x128 (![0, 1] : Fin 2 → Fin 2) h2 (broadcastInDim S1x128 (![1] : Fin 1 → Fin 2) h1 b)))
          (broadcastInDim S100000x128 (![] : Fin 0 → Fin 2) hz (constant (F := Ideal) S_ .f32 0x00000000#32)) := by
  rw [Cert.LibGraphConv.host_eq_layerPos d hlc hrc hln hrn hlb hrb none _ h wl wr b h1 h2 hz]
  funext i
  obtain ⟨r, j, rfl⟩ : ∃ (r : Fin 100000) (j : Fin 128), i = ix2 r j := ⟨i 0, i 1, eq_ix2 i⟩
  rw [Cert.LibGraphConv.layerPos_ix2]
  unfold Cert.LibGraphConv.entry
  have hD : ∀ k : Fin 128,
      Host.divf a (broadcastInDim S100000x128 (![0, 1] : Fin 2 → Fin 2) g2
        (broadcastInDim S100000x1 (![0] : Fin 1 → Fin 2) g1
          (maximumf deg (broadcastInDim S100000 (![] : Fin 0 → Fin 1) g0 (constant (F := Ideal) S_ .f32 0x3F800000#32))))) (ix2 r k)
        = Ideal.div (a (ix2 r k)) (max (deg (ix1 r)) (Ideal.ofBits .f32 0x3F800000#32)) := fun k => by
    show Ideal.div (a (ix2 r k)) (broadcastInDim S100000x128 (![0, 1] : Fin 2 → Fin 2) g2
      (broadcastInDim S100000x1 (![0] : Fin 1 → Fin 2) g1
        (maximumf deg (broadcastInDim S100000 (![] : Fin 0 → Fin 1) g0 (constant (F := Ideal) S_ .f32 0x3F800000#32)))) (ix2 r k)) = _
    rw [col_apply (maximumf deg (broadcastInDim S100000 (![] : Fin 0 → Fin 1) g0 (constant (F := Ideal) S_ .f32 0x3F800000#32))) g1 g2 r k]
    rfl
  simp only [hD]
  show max (((∑ k : Fin 128, Ideal.div (a (ix2 r k)) (max (shapeCast S100000x1 deg hcd (ix2 r (0 : Fin 1))) (Ideal.ofBits .f32 0x3F800000#32))
        * wl (ix2 k j)) + ∑ k : Fin 128, h (ix2 r k) * wr (ix2 k j)) + shapeCast S1x128 b hcb (ix2 (0 : Fin 1) j)) 0 = _
  rw [Cert.Lib.ColumnForms.shapeCast_a_a1_apply deg hcd r 0, shapeCast_a_1a_apply b hcb]

/-- The head is the host's: two products with their biases and the positive part between them, then
    1 / (1 + exp (−x)). -/
theorem head_host (d1 : DotDims S100000x128 S128x128 S100000x128)
    (hlc : d1.lhsContracting = [1]) (hrc : d1.rhsContracting = [0]) (hln : d1.lhsNonContracting = [0])
    (hrn : d1.rhsNonContracting = [1]) (hlb : d1.lhsBatch = []) (hrb : d1.rhsBatch = [])
    (d2 : DotDims S100000x128 S128x1 S100000x1)
    (hlc' : d2.lhsContracting = [1]) (hrc' : d2.rhsContracting = [0]) (hln' : d2.lhsNonContracting = [0])
    (hrn' : d2.rhsNonContracting = [1]) (hlb' : d2.lhsBatch = []) (hrb' : d2.rhsBatch = [])
    (h : FVec Ideal S100000x128 .f32) (w1 : FVec Ideal S128x128 .f32) (b1 : FVec Ideal S128 .f32)
    (w2 : FVec Ideal S128x1 .f32) (b2 : FVec Ideal S1 .f32)
    (hc1 : S128.ShapeCasts S1x128) (hc2 : S1.ShapeCasts S1x1)
    (p1 : S128.BroadcastsInDim S1x128 (![1] : Fin 1 → Fin 2))
    (p2 : S1x128.BroadcastsInDim S100000x128 (![0, 1] : Fin 2 → Fin 2))
    (pz : S_.BroadcastsInDim S100000x128 (![] : Fin 0 → Fin 2))
    (q1 : S1.BroadcastsInDim S1x1 (![1] : Fin 1 → Fin 2))
    (q2 : S1x1.BroadcastsInDim S100000x1 (![0, 1] : Fin 2 → Fin 2))
    (po : S_.BroadcastsInDim S100000x1 (![] : Fin 0 → Fin 2)) :
    HeadValue.head h w1 (shapeCast S1x128 b1 hc1) w2 (shapeCast S1x1 b2 hc2)
      = Host.divf (broadcastInDim S100000x1 (![] : Fin 0 → Fin 2) po (constant (F := Ideal) S_ .f32 0x3F800000#32))
          (addf (broadcastInDim S100000x1 (![] : Fin 0 → Fin 2) po (constant (F := Ideal) S_ .f32 0x3F800000#32))
            (Host.exp (Host.negf
              (addf (Host.dotGeneral d2 none
                  (maximumf (addf (Host.dotGeneral d1 none h w1)
                      (broadcastInDim S100000x128 (![0, 1] : Fin 2 → Fin 2) p2 (broadcastInDim S1x128 (![1] : Fin 1 → Fin 2) p1 b1)))
                    (broadcastInDim S100000x128 (![] : Fin 0 → Fin 2) pz (constant (F := Ideal) S_ .f32 0x00000000#32)))
                  w2)
                (broadcastInDim S100000x1 (![0, 1] : Fin 2 → Fin 2) q2 (broadcastInDim S1x1 (![1] : Fin 1 → Fin 2) q1 b2)))))) := by
  generalize hX : maximumf (addf (Host.dotGeneral d1 none h w1)
      (broadcastInDim S100000x128 (![0, 1] : Fin 2 → Fin 2) p2 (broadcastInDim S1x128 (![1] : Fin 1 → Fin 2) p1 b1)))
    (broadcastInDim S100000x128 (![] : Fin 0 → Fin 2) pz (constant (F := Ideal) S_ .f32 0x00000000#32)) = X
  funext i
  obtain ⟨r, z, rfl⟩ : ∃ (r : Fin 100000) (z : Fin 1), i = ix2 r z := ⟨i 0, i 1, eq_ix2 i⟩
  show _ = Ideal.div (Ideal.ofBits .f32 0x3F800000#32) (Ideal.ofBits .f32 0x3F800000#32
    + Ideal.exp (-(addf (Host.dotGeneral d2 none X w2)
        (broadcastInDim S100000x1 (![0, 1] : Fin 2 → Fin 2) q2 (broadcastInDim S1x1 (![1] : Fin 1 → Fin 2) q1 b2)) (ix2 r z))))
  rw [Cert.LibHostAffine.affine_apply d2 hlc' hrc' hln' hrn' hlb' hrb' none X w2 b2 q1 q2 r z, one_word]
  have hk : ∀ k : Fin 128, X (ix2 r k) = max ((∑ l : Fin 128, h (ix2 r l) * w1 (ix2 l k)) + b1 (ix1 k)) 0 := fun k => by
    rw [← hX, Cert.LibHostAffine.relu_apply _ pz (ix2 r k), Cert.LibHostAffine.affine_apply d1 hlc hrc hln hrn hlb hrb none h w1 b1 p1 p2 r k]
  simp only [hk]
  show Ideal.logistic ((∑ k : Fin 128, max ((∑ l : Fin 128, h (ix2 r l) * w1 (ix2 l k)) + shapeCast S1x128 b1 hc1 (ix2 (0 : Fin 1) k)) 0
      * w2 (ix2 k z)) + shapeCast S1x1 b2 hc2 (ix2 (0 : Fin 1) z)) = _
  simp only [shapeCast_a_1a_apply b1 hc1, shapeCast_a_1a_apply b2 hc2]
  rfl

end Cert.HostForms

end
-- ==== Proof.Bridge.lean ====
/-
  The reference computes the same function.

  The reference runs the whole network on the host. Its stages are matched with the program's one after the other:
  the encoder's output; the sum of the source nodes' features over incoming edges (the same gather and scatter-add
  on both sides, applied to equal features); the in-degree (the same scatter-add of ones); each neighbour-averaging
  layer; and the head followed by the reshape to a vector. At each launch the two sides differ only in spelling —
  a blocked product against one whole product, a degree column against a degree vector repeated along the rows,
  the logistic function against 1 / (1 + exp (−x)) — and are equal on all extended reals.
-/
import proofs.«178376_j41558103556527_1_alg».proof.Proof.Gen.ReferenceIdeal.Read
import proofs.«178376_j41558103556527_1_alg».proof.Proof.KernelValue
import proofs.«178376_j41558103556527_1_alg».proof.Proof.HostForms

set_option maxRecDepth 16384

noncomputable section

namespace Cert.ReferenceIdeal.RefValue

open Idealize.ShloMosaic Idealize.ShloMosaic.ValueIdx
open Cert.ReferenceIdeal Cert.ReferenceIdeal.Gen Cert.ReferenceIdeal.Read
open Cert.KernelIdeal.ProgramValue (h0 conv agg degCol src dst program)

variable (x0 : FVec Ideal S100000x16 .f32) (x1 : (⟨S2x1600000, .i32⟩ : BufTy).Contents (Elt Ideal)) (x4 : FVec Ideal S16x128 .f32)
  (x5 : FVec Ideal S128 .f32) (x6 x7 : FVec Ideal S128x128 .f32) (x8 : FVec Ideal S128 .f32)
  (x9 x10 : FVec Ideal S128x128 .f32) (x11 : FVec Ideal S128 .f32) (x12 : FVec Ideal S128x128 .f32)
  (x13 : FVec Ideal S128 .f32) (x14 : FVec Ideal S128x1 .f32) (x15 : FVec Ideal S1 .f32)

/-- The encoder's output. -/
theorem ref_h0 : val_main_v7 (F := Ideal) x0 x4 x5 = h0 x0 x4 x5 := by
  unfold val_main_v7 val_main_v4 val_main_v6 val_main_v5 h0
  exact (Cert.HostForms.enc_host dot_S100000x16_S16x128_S100000x128_1_0_0_1_n_n rfl rfl rfl rfl rfl rfl x0 x4 x5 _ _ _).symm

/-- The source nodes with a negative index wrapped once, as a column of indices: the same on both sides. -/
theorem ref_srcIdx : val_main_v13 (F := Ideal) x1
    = broadcastInDim S1600000x1 ![0] bcast_S1600000_S1600000x1_0
        (select (cmpi .slt (src x1) (broadcastInDim S1600000 ![] bcast_S_S1600000 (constantI S_ 32 0#32)))
          (addi (src x1) (broadcastInDim S1600000 ![] bcast_S_S1600000 (constantI S_ 32 100000#32))) (src x1)) := by
  unfold val_main_v13 val_main_v12 val_main_v11 val_main_v10 val_main_v9 val_main_v8 val_main_c val_main_c_0 val_main_v1 val_main_v0 src
  rfl

theorem ref_srcIdx' : val_main_v39 (F := Ideal) x1 = val_main_v13 (F := Ideal) x1 := by
  unfold val_main_v39 val_main_v38 val_main_v37 val_main_v36 val_main_v35 val_main_v34 val_main_c_4 val_main_c_5
    val_main_v13 val_main_v12 val_main_v11 val_main_v10 val_main_v9 val_main_v8 val_main_c val_main_c_0
  rfl

/-- The destination nodes as a column of indices. -/
theorem ref_dstIdx : val_main_v16 (F := Ideal) x1 = broadcastInDim S1600000x1 ![0] bcast_S1600000_S1600000x1_0 (dst x1) := by
  unfold val_main_v16 val_main_v3 val_main_v2 dst
  rfl

/-- The sum over incoming edges of any node features: the reference's gather and scatter-add are the program's. -/
theorem ref_agg (h : FVec Ideal S100000x128 .f32) :
    (Host.scatterAdd scatter_S100000x128_S1600000x1_S1600000x128_1_0_0_1 (val_main_v15 (F := Ideal)) (val_main_v16 (F := Ideal) x1)
      (Host.gather gather_S100000x128_S1600000x1_S1600000x128_1_0_n_n_0_1_1128 h (val_main_v13 (F := Ideal) x1))
        : FVec Ideal S100000x128 .f32)
      = agg x1 h := by
  rw [ref_srcIdx, ref_dstIdx]
  unfold val_main_v15 val_main_cst agg
  rfl

/-- The in-degree: the reference's vector, made a column, is the program's. -/
theorem ref_deg : ∃ hc : S100000.ShapeCasts S100000x1,
    degCol x1 = shapeCast S100000x1 (val_main_v21 (F := Ideal) x1 : FVec Ideal S100000 .f32) hc := by
  refine ⟨Cert.KernelIdeal.Gen.facts.shapeCasts_S100000_S100000x1, ?_⟩
  unfold degCol val_main_v21 val_main_v19 val_main_v20 val_main_v18 val_main_cst_1 val_main_cst_2 val_main_v3 val_main_v2 dst
  rfl

theorem ref_deg' : val_main_v47 (F := Ideal) x1 = val_main_v21 (F := Ideal) x1 := by
  unfold val_main_v47 val_main_v45 val_main_v46 val_main_v44 val_main_cst_7 val_main_cst_8
    val_main_v21 val_main_v19 val_main_v20 val_main_v18 val_main_cst_1 val_main_cst_2
  rfl

/-- One layer in the reference's spelling, on top of any node features. -/
def refLayer (h : FVec Ideal S100000x128 .f32) (wl wr : FVec Ideal S128x128 .f32) (b : FVec Ideal S128 .f32) :
    FVec Ideal S100000x128 .f32 :=
  maximumf
    (addf (addf
        (Host.dotGeneral dot_S100000x128_S128x128_S100000x128_1_0_0_1_n_n none
          (Host.divf (agg x1 h : FVec Ideal S100000x128 .f32) (broadcastInDim S100000x128 ![0, 1] bcast_S100000x1_S100000x128_0_1
            (broadcastInDim S100000x1 ![0] bcast_S100000_S100000x1_0
              (maximumf (val_main_v21 (F := Ideal) x1 : FVec Ideal S100000 .f32)
                (broadcastInDim S100000 ![] bcast_S_S100000 (constant (F := Ideal) S_ .f32 0x3F800000#32))))))
          wl)
        (Host.dotGeneral dot_S100000x128_S128x128_S100000x128_1_0_0_1_n_n none h wr))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- A layer of the reference is the program's layer. -/
theorem refLayer_eq (h : FVec Ideal S100000x128 .f32) (wl wr : FVec Ideal S128x128 .f32) (b : FVec Ideal S128 .f32) :
    refLayer x1 h wl wr b = conv x1 h wl wr b := by
  unfold refLayer conv
  obtain ⟨hc, e⟩ := ref_deg x1
  rw [e]
  exact (Cert.HostForms.layer_host dot_S100000x128_S128x128_S100000x128_1_0_0_1_n_n rfl rfl rfl rfl rfl rfl
    (agg x1 h) h (val_main_v21 (F := Ideal) x1) wl wr b _ _ _ _ _ _ _ _).symm

/-- The node features after the first layer. -/
theorem ref_h1 : val_main_v33 (F := Ideal) x0 x1 x4 x5 x6 x7 x8 = conv x1 (h0 x0 x4 x5) x6 x7 x8 := by
  rw [← refLayer_eq]
  unfold val_main_v33 val_main_v32 val_main_v29 val_main_v27 val_main_v28 val_main_v26 val_main_v31 val_main_v30
    val_main_call0_v0 val_main_call0_cst val_main_v25 val_main_v24 val_main_v23 val_main_v22 val_main_cst_3
    val_main_v17 val_main_v14
  rw [ref_h0, ref_agg]
  rfl

/-- The node features after the second layer. -/
theorem ref_h2 : val_main_v59 (F := Ideal) x0 x1 x4 x5 x6 x7 x8 x9 x10 x11
    = conv x1 (conv x1 (h0 x0 x4 x5) x6 x7 x8) x9 x10 x11 := by
  rw [← refLayer_eq]
  unfold val_main_v59 val_main_v58 val_main_v55 val_main_v53 val_main_v54 val_main_v52 val_main_v57 val_main_v56
    val_main_call1_v0 val_main_call1_cst val_main_v51 val_main_v50 val_main_v49 val_main_v48 val_main_cst_9
    val_main_v43 val_main_v40 val_main_v41 val_main_cst_6 val_main_v42
  rw [ref_h1, ref_srcIdx', ref_deg']
  have e := ref_agg x1 (conv x1 (h0 x0 x4 x5) x6 x7 x8)
  unfold val_main_v15 val_main_cst val_main_v16 at e
  rw [e]
  rfl

/-- THE REFERENCE'S RESULT is the program's function of the same arguments. -/
theorem ref_eq_program : val_main_v75 (F := Ideal) x0 x1 x4 x5 x6 x7 x8 x9 x10 x11 x12 x13 x14 x15
    = program x0 x1 x4 x5 x6 x7 x8 x9 x10 x11 x12 x13 x14 x15 := by
  unfold val_main_v75 val_main_v74 val_main_v73 val_main_v72 val_main_v71 val_main_v70 val_main_v69 val_main_v68
    val_main_v67 val_main_v66 val_main_v65 val_main_v64 val_main_v63 val_main_v62 val_main_v61 val_main_v60
    val_main_call2_v0 val_main_call2_cst val_main_cst_10 val_main_cst_11
  rw [ref_h2]
  unfold program
  rw [Cert.HostForms.head_host dot_S100000x128_S128x128_S100000x128_1_0_0_1_n_n rfl rfl rfl rfl rfl rfl
    dot_S100000x128_S128x1_S100000x1_1_0_0_1_n_n rfl rfl rfl rfl rfl rfl
    (conv x1 (conv x1 (h0 x0 x4 x5) x6 x7 x8) x9 x10 x11) x12 x13 x14 x15 _ _
    bcast_S128_S1x128_1 bcast_S1x128_S100000x128_0_1 bcast_S_S100000x128 bcast_S1_S1x1_1 bcast_S1x1_S100000x1_0_1 bcast_S_S100000x1]

end Cert.ReferenceIdeal.RefValue

end
-- ==== Proof.lean ====
/-
  The certificate of a two-layer neighbour-averaging graph network with a prediction head.

  The kernel program is four launches — the node encoder, two neighbour-averaging layers and the head, each over
  twenty blocks of 5000 rows — with the gathers and scatter-adds of the graph between them on the host; the reference
  is the same network written with whole-array host operations.

  * The three frames: the two kernel programs' are the generated ones; the reference's is its generated run with the
    result dropped.
  * The idealized kernel is the printed kernel read at the ideal instance: no operation was rewritten.
  * Equal results: the idealized kernel's result buffer ends at one function of the argument arrays (each launch one
    whole-array function of what it finds, the host stretches their operations), and the reference's stages equal
    that function's stages one after the other. Nothing in the comparison needs a finite input: every step reads
    the same sums in the same grouping on the two sides.
-/
import proofs.«178376_j41558103556527_1_alg».proof.Defs
import proofs.«178376_j41558103556527_1_alg».proof.Proof.Gen.Kernel
import proofs.«178376_j41558103556527_1_alg».proof.Proof.Gen.Kernel.Frame
import proofs.«178376_j41558103556527_1_alg».proof.Proof.Gen.KernelIdeal
import proofs.«178376_j41558103556527_1_alg».proof.Proof.Gen.KernelIdeal.Frame
import proofs.«178376_j41558103556527_1_alg».proof.Proof.Gen.ReferenceIdeal
import proofs.«178376_j41558103556527_1_alg».proof.Proof.Gen.Pre_finite_inputs
import proofs.«178376_j41558103556527_1_alg».proof.Proof.Gen.ReferenceIdeal.Run
import proofs.«178376_j41558103556527_1_alg».proof.Proof.Gen.ReferenceIdeal.Read
import proofs.«178376_j41558103556527_1_alg».proof.Proof.KernelRun
import proofs.«178376_j41558103556527_1_alg».proof.Proof.KernelValue
import proofs.«178376_j41558103556527_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end, the kernel's result at the program's function of
    its arguments and the reference's at the same function of the same arrays. -/
theorem algebraic : Cert.algebraic_KernelIdeal_ReferenceIdeal := by
  intro m ρ m' ρ' _ hagree
  refine ⟨fun c => Cert.KernelIdeal.ProgramValue.program (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.ProgramValue.result_value m ρ c), (h c).2⟩)
      (Cert.KernelIdeal.RunValue.run m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v75_eq, Cert.ReferenceIdeal.RefValue.ref_eq_program,
      (hagree c).1, (hagree c).2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
